-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1700000x128 : Shape := ⟨2, ![1700000, 128]⟩
abbrev S1x128 : Shape := ⟨2, ![1, 128]⟩
abbrev S5000 : Shape := ⟨1, ![5000]⟩

abbrev nBuf : Space → Nat
  | .hbm => 45
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S100000x128, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000x128, .f32⟩
  | .hbm, ⟨37, _⟩ => ⟨S_, .f32⟩
  | .hbm, ⟨38, _⟩ => ⟨S100000x128, .f32⟩
  | .hbm, ⟨39, _⟩ => ⟨S1700000x1, .i32⟩
  | .hbm, ⟨40, _⟩ => ⟨S100000x128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩

abbrev nBuf : Space → Nat
  | .hbm => 97
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S100000x128, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x128, .f32⟩
  | .hbm, ⟨55, _⟩ => ⟨S1700000x1, .f32⟩
  | .hbm, ⟨56, _⟩ => ⟨S1700000x128, .f32⟩
  | .hbm, ⟨57, _⟩ => ⟨S1700000x128, .f32⟩
  | .hbm, ⟨58, _⟩ => ⟨S_, .f32⟩
  | .hbm, ⟨59, _⟩ => ⟨S100000x128, .f32⟩
  | .hbm, ⟨60, _⟩ => ⟨S1700000x1, .i32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S100000, .f32⟩
  | .hbm, ⟨67, _⟩ => ⟨S100000x1, .f32⟩
  | .hbm, ⟨68, _⟩ => ⟨S_, .f32⟩
  | .hbm, ⟨69, _⟩ => ⟨S100000x1, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S_, .f32⟩
  | .hbm, ⟨75, _⟩ => ⟨S100000, .f32⟩
  | .hbm, ⟨76, _⟩ => ⟨S100000x1, .f32⟩
  | .hbm, ⟨77, _⟩ => ⟨S_, .f32⟩
  | .hbm, ⟨78, _⟩ => ⟨S100000x1, .f32⟩
  | .hbm, ⟨79, _⟩ => ⟨S100000x1, .f32⟩
  | .hbm, ⟨80, _⟩ => ⟨S100000x128, .f32⟩
  | .hbm, ⟨81, _⟩ => ⟨S100000x128, .f32⟩
  | .hbm, ⟨82, _⟩ => ⟨S_, .f32⟩
  | .hbm, ⟨83, _⟩ => ⟨S100000x1, .f32⟩
  | .hbm, ⟨84, _⟩ => ⟨S100000x1, .f32⟩
  | .hbm, ⟨85, _⟩ => ⟨S100000x1, .f32⟩
  | .hbm, ⟨86, _⟩ => ⟨S100000x128, .f32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S100000x128, .f32⟩
  | .hbm, ⟨91, _⟩ => ⟨S1x128, .f32⟩
  | .hbm, ⟨92, _⟩ => ⟨S100000x128, .f32⟩
  | .hbm, ⟨93, _⟩ => ⟨S100000x128, .f32⟩
  | .hbm, ⟨94, _⟩ => ⟨S_, .f32⟩
  | .hbm, ⟨95, _⟩ => ⟨S100000x128, .f32⟩
  | .hbm, ⟨96, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_cst_12 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_13 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_call1_cst : Ref sig .tc := ⟨.hbm, 94, rfl⟩
abbrev main_call1_v0 : Ref sig .tc := ⟨.hbm, 95, rfl⟩
abbrev main_v72 : Ref sig .tc := ⟨.hbm, 96, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KRun.lean ====
/-
  The idealized kernel program's run with its RESULT named. The program is two kernel regions among stretches of host
  operations; its buffer contents at each boundary are a fold from the launch memory (the generated `W0 … W6`), and
  every weakly fair execution ends with each unscoped buffer at the last boundary's contents `W6`. Read at the result
  buffer this names the result; read at the arguments it gives them back as launched.
-/
import proofs.«176098_j48661979464167_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, with the result buffer at the last
    boundary's contents and the argument arrays as launched. -/
theorem run_result : θ_run defs (onTc (τ := τ) (main (F := F))) ⟨m, fun _ => 0, ρ⟩ (fun r => ∀ c : Dev nD,
      r.2.mem ((c.tc : Thread nD τ).loc main_v31) = W6 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v31 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.KRun

end
-- ==== Proof.KHostDefs.lean ====
/-
  The host side of the kernel program, as array-level terms of the arguments.

  From the edge list `e` (two rows of 1,600,000 words): the source words `rowsK e` and target words `colsK e`, each
  row followed by the self loops 0 … 99999; the in-degree of every node (a scatter of ones at the target words), and
  `dinvK e`, its inverse square root where it is positive and zero elsewhere; `nrowsK r`, the source words made
  non-negative (100000 added to a negative word); and `aggArr H r cl`, the rows of a table `H` gathered at the
  normalised source words and scatter-added at the target words into a zero table.
-/
import proofs.«176098_j48661979464167_2_alg».proof.KernelIdeal
import Idealize.ShloMosaic.PureOps.Ideal

noncomputable section

namespace Cert.KernelIdeal.KHost

open Cert.KernelIdeal Idealize.ShloMosaic

variable [Facts]
open Facts₀ Facts

variable {F : FTy → Type} [FloatOps F]

/-- The source words: row 0 of the edge list, then the self loops. -/
def rowsK (e : IVec S2x1600000 32) : IVec S1700000 32 :=
  concatenate S1700000 0 [⟨S1600000, shapeCast S1600000 (extractStridedSlice S1x1600000 ![0, 0] e slices_S2x1600000_S1x1600000_0_0) shapeCasts_S1x1600000_S1600000⟩,
    ⟨S100000, iotaInDim S100000 32 0⟩] concatenates_S1600000_S100000_S1700000_d0

/-- The target words: row 1 of the edge list, then the self loops. -/
def colsK (e : IVec S2x1600000 32) : IVec S1700000 32 :=
  concatenate S1700000 0 [⟨S1600000, shapeCast S1600000 (extractStridedSlice S1x1600000 ![1, 0] e slices_S2x1600000_S1x1600000_1_0) shapeCasts_S1x1600000_S1600000⟩,
    ⟨S100000, iotaInDim S100000 32 0⟩] concatenates_S1600000_S100000_S1700000_d0

/-- Every node's in-degree: ones scatter-added at the target words into zeros. -/
def degK (e : IVec S2x1600000 32) : FVec F S100000 .f32 :=
  Host.scatterAdd scatter_S100000_S1700000x1_S1700000_n_0_0_1
    (broadcastInDim S100000 ![] bcast_S_S100000 (constant S_ .f32 0x00000000#32))
    (broadcastInDim S1700000x1 ![0] bcast_S1700000_S1700000x1_0 (colsK e))
    (broadcastInDim S1700000 ![] bcast_S_S1700000 (constant S_ .f32 0x3F800000#32))

/-- The degree factor: the inverse square root of a positive degree, zero elsewhere. -/
def dinvK (e : IVec S2x1600000 32) : FVec F S100000 .f32 :=
  select (cmpf .ogt (degK (F := F) e) (broadcastInDim S100000 ![] bcast_S_S100000 (constant S_ .f32 0x00000000#32)))
    (Host.rsqrt (degK (F := F) e)) (broadcastInDim S100000 ![] bcast_S_S100000 (constant S_ .f32 0x00000000#32))

/-- Index words made non-negative: 100000 added to a negative one. -/
def nrowsK (r : IVec S1700000 32) : IVec S1700000 32 :=
  select (cmpi .slt r (broadcastInDim S1700000 ![] bcast_S_S1700000 (constantI S_ 32 0#32)))
    (addi r (broadcastInDim S1700000 ![] bcast_S_S1700000 (constantI S_ 32 100000#32))) r

/-- The rows of `H` gathered at the normalised source words, scatter-added at the target words into zeros. -/
def aggArr (H : FVec F S100000x128 .f32) (r cl : IVec S1700000 32) : FVec F S100000x128 .f32 :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 cl)
    (Host.gather gather_S100000x128_S1700000x1_S1700000x128_1_0_n_n_0_1_1128 H
      (broadcastInDim S1700000x1 ![0] bcast_S1700000_S1700000x1_0 (nrowsK r)))

end Cert.KernelIdeal.KHost

end
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.GcnSpec.lean ====
/-
  The mathematics of one graph-convolution layer with self loops, as both programs compute it, over coordinates.

  Nodes 0 … 99999 carry 128 features. The edge list has 1,700,000 entries (1,600,000 given edges followed by one
  self loop per node); entry j has a target word `cI j` (read as a signed integer: the node it is added into, or no
  node when it is outside 0 … 99999), a source row `clampN (nr j)` (the source word made non-negative by adding
  100000 to a negative one, then clamped into the node range, as an out-of-range gather index is) and likewise a
  clamped target row `clampN (nc j)`. `d` is the inverse square root of each node's in-degree.

  * The reference aggregates, into node i, the transformed source rows `(x · w)[src j]` each scaled by
    `d[src j] · d[tgt j]`, then adds the bias: `aggR`.
  * The kernel transforms the pre-scaled rows `(x[n] · d[n]) · w`, aggregates them unscaled, and scales the sum of
    node i by `d[i]` before adding the bias: `aggK`.
  Over real numbers the two agree (distributivity; the target row of an entry that lands on i is i).

  Both then normalise each node's 128 values to zero mean and unit variance (the variance biased, plus the word
  0x3727C5AC ≈ 1e-5 under the inverse square root), scale by `g`, shift by `be` and clip below at 0:
  `layerNormRelu`.
-/
import Idealize.ShloMosaic.PureOps.Ideal
import Idealize.ShloMosaic.Lib.ValueIdx

noncomputable section

open scoped BigOperators

namespace Cert.GcnSpec

open Idealize.ShloMosaic

/-- A 32-bit word read as a signed gather index into 100000 rows: clamped into 0 … 99999. -/
def clampN (v : BitVec 32) : Fin 100000 := ⟨min v.toInt.toNat (100000 - 1), by omega⟩

/-- The divisor 128.0 and the variance offset, as the programs' words (never evaluated: the same on both sides). -/
def c128 : EReal := Ideal.ofBits .f32 0x43000000#32
def epsLn : EReal := Ideal.ofBits .f32 0x3727C5AC#32

section Agg
variable (x : Fin 100000 → Fin 128 → EReal) (w : Fin 128 → Fin 128 → EReal) (d : Fin 100000 → EReal)
  (b : Fin 128 → EReal) (nr cI nc : Fin 1700000 → BitVec 32)

/-- The reference's aggregate at node `i`, feature `c`: the entries landing on `i`, each the transformed source row
    scaled by the two degree factors, summed; plus the bias. -/
def aggR (i : Fin 100000) (c : Fin 128) : EReal :=
  (∑ j : Fin 1700000, if (cI j).toInt = (i.val : ℤ) then
      (∑ k : Fin 128, x (clampN (nr j)) k * w k c) * (d (clampN (nr j)) * d (clampN (nc j))) else 0) + b c

/-- The kernel's aggregate at node `i`, feature `c`: the entries landing on `i`, each the transformed pre-scaled
    source row, summed; the sum scaled by the node's own degree factor; plus the bias. -/
def aggK (i : Fin 100000) (c : Fin 128) : EReal :=
  (∑ j : Fin 1700000, if (cI j).toInt = (i.val : ℤ) then
      (∑ k : Fin 128, (x (clampN (nr j)) k * d (clampN (nr j))) * w k c) else 0) * d i + b c

end Agg

/-- Layer normalisation over the 128 features of node `i`, scale, shift, and the clip at zero. -/
def layerNormRelu (v : Fin 100000 → Fin 128 → EReal) (g be : Fin 128 → EReal) (i : Fin 100000) (c : Fin 128) : EReal :=
  max (((v i c - Ideal.div (∑ k : Fin 128, v i k) c128)
        * Ideal.rsqrt (Ideal.div (∑ k : Fin 128, (v i k - Ideal.div (∑ k : Fin 128, v i k) c128)
            * (v i k - Ideal.div (∑ k : Fin 128, v i k) c128)) c128 + epsLn)) * g c + be c) 0

end Cert.GcnSpec

end
-- ==== Proof.KPay.lean ====
/-
  What the two kernel bodies store, read at an entry of their 5000-row block, on the extended reals.

  The first body scales each row of its block of x by that row's degree factor and multiplies by W: entry (p, q) is
  the sum over k of (x[p, k] · d[p]) · W[k, q]  (the narrowing to a shorter float format is the identity here).
  The second body scales each row of the aggregate by the row's degree factor, adds the bias row, and normalises the
  row: mean and biased variance over the 128 features, inverse square root of variance plus the offset word, scale,
  shift, clip at zero — `lnRow` of the row.
-/
import proofs.«176098_j48661979464167_2_alg».proof.Proof.Gen.KernelIdeal.Skeleton
import proofs.«176098_j48661979464167_2_alg».proof.Proof.LibLayout
import proofs.«176098_j48661979464167_2_alg».proof.Proof.GcnSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KPay

open Idealize.ShloMosaic Idealize.ShloMosaic.TcCoe Idealize.ShloMosaic.ValueIdx
open Cert.KernelIdeal Cert.KernelIdeal.Gen Cert.GcnSpec Cert.LibLayout

/-- Layer normalisation of ONE row of 128 values, scale, shift and the clip at zero. -/
def lnRow (v g be : Fin 128 → EReal) (c : Fin 128) : EReal :=
  max (((v c - Ideal.div (∑ k : Fin 128, v k) c128)
        * Ideal.rsqrt (Ideal.div (∑ k : Fin 128, (v k - Ideal.div (∑ k : Fin 128, v k) c128)
            * (v k - Ideal.div (∑ k : Fin 128, v k) c128)) c128 + epsLn)) * g c + be c) 0

/-- The layer's normalisation is the row's, row by row. -/
theorem layerNormRelu_eq_lnRow (v : Fin 100000 → Fin 128 → EReal) (g be : Fin 128 → EReal) (i : Fin 100000) (c : Fin 128) :
    layerNormRelu v g be i c = lnRow (v i) g be c := rfl

/-- The first body's stored value at (p, q): the row p of the block, scaled by its degree factor, times column q of W. -/
theorem pay0_apply (x0 : Vec Ideal S5000x128 .f32) (x1 : Vec Ideal S5000x1 .f32) (x2 : Vec Ideal S128x128 .f32)
    (p : Fin 5000) (q : Fin 128) :
    k0_pay1 (F := Ideal) x0 x1 x2 (ix2 p q)
      = ∑ k : Fin 128, ((x0 (ix2 p k) : EReal) * (x1 (ix2 p (0 : Fin 1)) : EReal)) * (x2 (ix2 k q) : EReal) := by
  unfold k0_pay1
  refine (matmul_rows_cols_apply (M := 5000) (K := 128) (N := 128) dot_S5000x128_S128x128_S5000x128_1_0_0_1_n_n
    rfl rfl rfl rfl (fun _ _ => rfl) (fun _ _ => rfl) none _ _ p q).trans ?_
  refine Finset.sum_congr rfl fun k _ => ?_
  rw [truncf_apply, truncf_apply, mulf_apply, broadcastTo_a1_ab_apply, shapeCast_self]

/-- The inverse square root of a vector, at an entry. -/
theorem rsqrt_apply {s : Shape} {φ : FTy} (a : FVec Ideal s φ) (i : s.Idx) : rsqrt a i = Ideal.rsqrt (a i) := rfl

/-- The second body's stored value at (p, q): the normalised row p of the scaled, biased aggregate block. -/
theorem pay1_apply (x0 : Vec Ideal S5000x128 .f32) (x2 : Vec Ideal S5000x1 .f32) (x6 x26 x30 : Vec Ideal S1x128 .f32)
    (p : Fin 5000) (q : Fin 128) :
    k1_pay1 (F := Ideal) x0 x2 x6 x26 x30 (ix2 p q)
      = lnRow (fun k => (x0 (ix2 p k) : EReal) * (x2 (ix2 p (0 : Fin 1)) : EReal) + (x6 (ix2 (0 : Fin 1) k) : EReal))
          (fun k => (x26 (ix2 (0 : Fin 1) k) : EReal)) (fun k => (x30 (ix2 (0 : Fin 1) k) : EReal)) q := by
  have hsum : ∀ (src : FVec Ideal S5000x128 .f32) (n : Fin 5000),
      multiReduction .add [1] S5000 src 0x00000000#32 reduces_S5000x128_S5000 (.inl rfl) rfl (ix1 n)
        = ∑ k : Fin 128, src (ix2 n k) :=
    fun src n => multiReduction_add_rows (a := 5000) (b := 128) src _ _ _ _ n
  unfold k1_pay1 lnRow
  simp only [hsum, maximumf_apply, addf_apply, mulf_apply, subf_apply, divf_apply, rsqrt_apply, broadcast_apply, shapeCast_self,
    broadcastTo_a1_ab_apply, broadcastTo_1b_ab_apply, shapeCast_a_a1_apply, multiReduction_add_rows, Ideal.ofBits_def,
    Ideal.ofBits_zero_f32, c128, epsLn]

end Cert.KPay

end
-- ==== Proof.KReg0.lean ====
/-
  The first kernel region, as one function of the arrays it is entered with.

  The grid has 20 points; point t reads rows 5000·t … 5000·t + 4999 of x and of the degree column, the whole of W,
  and writes the same rows of its result. So the result array ends holding, at (n, q), the sum over k of
  (x[n, k] · d[n]) · W[k, q]: every block is the restriction of that one function, and the 20 blocks tile the rows.
-/
import proofs.«176098_j48661979464167_2_alg».proof.Proof.Gen.KernelIdeal.Frame
import proofs.«176098_j48661979464167_2_alg».proof.Proof.KPay
import Idealize.ShloMosaic.Lib.Pipeline.Value
import Idealize.ShloMosaic.Lib.ValueIdx

set_option maxRecDepth 16384

noncomputable section

open scoped BigOperators

namespace Cert.KernelIdeal.KReg0

open Cert.KernelIdeal Cert.KernelIdeal.Gen Cert.KPay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The rows of `X` scaled by the column `D`, times `W`. -/
def scaledProduct (X : S100000x128.Idx → Elt Ideal .f32) (D : S100000x1.Idx → Elt Ideal .f32) (W : S128x128.Idx → Elt Ideal .f32) :
    S100000x128.Idx → Elt Ideal .f32 :=
  fun i => ∑ k : Fin 128, ((X (ix2 (⟨(i 0).val, (i 0).isLt⟩ : Fin 100000) k) : EReal)
      * (D (ix2 (⟨(i 0).val, (i 0).isLt⟩ : Fin 100000) (0 : Fin 1)) : EReal)) * (W (ix2 k (⟨(i 1).val, (i 1).isLt⟩ : Fin 128)) : EReal)

/-- The printed index maps over the grid: the row blocks follow the point, W's block stays. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Every row block is some point's. -/
theorem idx_onto : ∀ q0 : Fin 20, ∃ t : Fin cfg0.N, win0_3.index t = ![q0.val, 0] :=
  (by decide +kernel : ∀ q0 : Fin 20, ∃ t : Fin grid0.N, win0_3.index t = ![q0.val, 0])

/-- What point `t` writes back is block `t` of the scaled product of the arrays the region is entered with. -/
theorem flushed_eq (c : Dev nD) (t : Fin cfg0.N) :
    (dat0 V c).flushed 3 t = ((cfg0.win 3).blk t).view.read (Elt Ideal)
      (scaledProduct (V c main_arg0) (V c main_v16) (V c main_arg2)) := by
  show (cfg0.win 3).cut (grid0.coords t) ((dat0 V c).after 3 t) = _
  rw [after0_3]
  unfold out0_3
  rw [View.canon_unit_zero hz]
  simp only [View.ld_unit_zero (S := S5000x128) hz, View.ld_unit_zero (S := S5000x1) hz, View.ld_unit_zero (S := S128x128) hz]
  obtain ⟨e00, e01, e10, e11, e20, e21, e30, e31⟩ := idx_facts t
  funext j
  obtain ⟨p, q, rfl⟩ : ∃ (p : Fin 5000) (q : Fin 128), j = ix2 p q := ⟨j 0, j 1, eq_ix2 j⟩
  refine (pay0_apply _ _ _ p q).trans ?_
  show _ = scaledProduct (V c main_arg0) (V c main_v16) (V c main_arg2) (((cfg0.win 3).blk t).view.emb (ix2 p q))
  unfold scaledProduct
  refine Finset.sum_congr rfl fun k _ => ?_
  have h0 : (iblk0 V c 0 t : Vec Ideal S5000x128 .f32) (ix2 p k)
      = V c main_arg0 (ix2 (⟨((((cfg0.win 3).blk t).view.emb (ix2 p q)) 0).val, ((((cfg0.win 3).blk t).view.emb (ix2 p q)) 0).isLt⟩ : Fin 100000) k) := by
    unfold iblk0
    rw [View.read_apply]
    show V c main_arg0 _ = V c main_arg0 _
    congr 1
    funext a; apply Fin.ext
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * k.val = k.val; omega
  have h1 : (iblk0 V c 1 t : Vec Ideal S5000x1 .f32) (ix2 p (0 : Fin 1))
      = V c main_v16 (ix2 (⟨((((cfg0.win 3).blk t).view.emb (ix2 p q)) 0).val, ((((cfg0.win 3).blk t).view.emb (ix2 p q)) 0).isLt⟩ : Fin 100000) (0 : Fin 1)) := by
    unfold iblk0
    rw [View.read_apply]
    show V c main_v16 _ = V c main_v16 _
    congr 1
    funext a; apply Fin.ext
    match a with
    | ⟨0, _⟩ => show win0_1.index t (0 : Fin 2) * 5000 + 1 * p.val = win0_3.index t (0 : Fin 2) * 5000 + 1 * p.val; omega
    | ⟨1, _⟩ => show win0_1.index t (1 : Fin 2) * 1 + 1 * 0 = 0; omega
  have h2 : (iblk0 V c 2 t : Vec Ideal S128x128 .f32) (ix2 k q)
      = V c main_arg2 (ix2 k (⟨((((cfg0.win 3).blk t).view.emb (ix2 p q)) 1).val, ((((cfg0.win 3).blk t).view.emb (ix2 p q)) 1).isLt⟩ : Fin 128)) := by
    unfold iblk0
    rw [View.read_apply]
    show V c main_arg2 _ = V c main_arg2 _
    congr 1
    funext a; apply Fin.ext
    match a with
    | ⟨0, _⟩ => show win0_2.index t (0 : Fin 2) * 128 + 1 * k.val = k.val; omega
    | ⟨1, _⟩ => show win0_2.index t (1 : Fin 2) * 128 + 1 * q.val = win0_3.index t (1 : Fin 2) * 128 + 1 * q.val; omega
  rw [h0, h1, h2]

/-- An index of the result array is in point `t`'s block iff its row is in the block's range. -/
theorem mem_blk (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v17).slice (win0_3.rect t)).set ↔ _
  rw [View.set_slice_whole, Rect.mem_set_unit]
  exact Iff.rfl

/-- The 20 row blocks cover the array. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The result array after the region: the scaled product of the arrays it was entered with. -/
theorem final (c : Dev nD) :
    (dat0 V c).arrAt 3 cfg0.N = scaledProduct (V c main_arg0) (V c main_v16) (V c main_arg2) :=
  (dat0 V c).arrAt_eq_of_cover 3 _ (fun t _ => flushed_eq V c t) cover

end Cert.KernelIdeal.KReg0

end
-- ==== Proof.KReg1.lean ====
/-
  The second kernel region, as one function of the arrays it is entered with.

  The grid has 20 points; point t reads rows 5000·t … 5000·t + 4999 of the aggregate and of the degree column, the
  three parameter rows (bias, scale, shift) whole, and writes the same rows of its result. So the result array ends
  holding, at (n, q), the layer normalisation (with scale, shift and the clip at zero) of row n of
  aggregate · degree factor + bias, at feature q: every block is the restriction of that one function, and the 20
  blocks tile the rows.
-/
import proofs.«176098_j48661979464167_2_alg».proof.Proof.Gen.KernelIdeal.Frame
import proofs.«176098_j48661979464167_2_alg».proof.Proof.KPay
import Idealize.ShloMosaic.Lib.Pipeline.Value
import Idealize.ShloMosaic.Lib.ValueIdx

set_option maxRecDepth 16384

noncomputable section

open scoped BigOperators

namespace Cert.KernelIdeal.KReg1

open Cert.KernelIdeal Cert.KernelIdeal.Gen Cert.KPay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Row `n` of `A` scaled by `D[n]` plus the bias row, normalised, scaled, shifted and clipped, at feature `q`. -/
def normalised (A : S100000x128.Idx → Elt Ideal .f32) (D : S100000x1.Idx → Elt Ideal .f32)
    (B G Be : S1x128.Idx → Elt Ideal .f32) : S100000x128.Idx → Elt Ideal .f32 :=
  fun i => lnRow (fun k => (A (ix2 (⟨(i 0).val, (i 0).isLt⟩ : Fin 100000) k) : EReal)
        * (D (ix2 (⟨(i 0).val, (i 0).isLt⟩ : Fin 100000) (0 : Fin 1)) : EReal) + (B (ix2 (0 : Fin 1) k) : EReal))
      (fun k => (G (ix2 (0 : Fin 1) k) : EReal)) (fun k => (Be (ix2 (0 : Fin 1) k) : EReal)) (⟨(i 1).val, (i 1).isLt⟩ : Fin 128)

theorem lnRow_congr {v v' g g' be be' : Fin 128 → EReal} {c c' : Fin 128} (hv : v = v') (hg : g = g') (hb : be = be')
    (hc : c = c') : lnRow v g be c = lnRow v' g' be' c' := by subst hv hg hb hc; rfl

/-- The printed index maps over the grid: the row blocks follow the point, the parameter rows stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Every row block is some point's. -/
theorem idx_onto : ∀ q0 : Fin 20, ∃ t : Fin cfg1.N, win1_5.index t = ![q0.val, 0] :=
  (by decide +kernel : ∀ q0 : Fin 20, ∃ t : Fin grid1.N, win1_5.index t = ![q0.val, 0])

/-- What point `t` writes back is block `t` of the normalised array of the arrays the region is entered with. -/
theorem flushed_eq (c : Dev nD) (t : Fin cfg1.N) :
    (dat1 V c).flushed 5 t = ((cfg1.win 5).blk t).view.read (Elt Ideal)
      (normalised (V c main_v27) (V c main_v16) (V c main_v28) (V c main_v29) (V c main_v30)) := by
  show (cfg1.win 5).cut (grid1.coords t) ((dat1 V c).after 5 t) = _
  rw [after1_5]
  unfold out1_5
  rw [View.canon_unit_zero hz]
  simp only [View.ld_unit_zero (S := S5000x128) hz, View.ld_unit_zero (S := S5000x1) hz, View.ld_unit_zero (S := S1x128) hz]
  obtain ⟨e00, e01, e10, e11, e20, e21, e30, e31, e40, e41, e50, e51⟩ := idx_facts t
  funext j
  obtain ⟨p, q, rfl⟩ : ∃ (p : Fin 5000) (q : Fin 128), j = ix2 p q := ⟨j 0, j 1, eq_ix2 j⟩
  refine (pay1_apply _ _ _ _ _ p q).trans ?_
  show _ = normalised (V c main_v27) (V c main_v16) (V c main_v28) (V c main_v29) (V c main_v30)
    (((cfg1.win 5).blk t).view.emb (ix2 p q))
  have h0 : ∀ k : Fin 128, (iblk1 V c 0 t : Vec Ideal S5000x128 .f32) (ix2 p k)
      = V c main_v27 (ix2 (⟨((((cfg1.win 5).blk t).view.emb (ix2 p q)) 0).val, ((((cfg1.win 5).blk t).view.emb (ix2 p q)) 0).isLt⟩ : Fin 100000) k) := by
    intro k
    unfold iblk1
    rw [View.read_apply]
    show V c main_v27 _ = V c main_v27 _
    congr 1
    funext a; apply Fin.ext
    match a with
    | ⟨0, _⟩ => show win1_0.index t (0 : Fin 2) * 5000 + 1 * p.val = win1_5.index t (0 : Fin 2) * 5000 + 1 * p.val; omega
    | ⟨1, _⟩ => show win1_0.index t (1 : Fin 2) * 128 + 1 * k.val = k.val; omega
  have h1 : (iblk1 V c 1 t : Vec Ideal S5000x1 .f32) (ix2 p (0 : Fin 1))
      = V c main_v16 (ix2 (⟨((((cfg1.win 5).blk t).view.emb (ix2 p q)) 0).val, ((((cfg1.win 5).blk t).view.emb (ix2 p q)) 0).isLt⟩ : Fin 100000) (0 : Fin 1)) := by
    unfold iblk1
    rw [View.read_apply]
    show V c main_v16 _ = V c main_v16 _
    congr 1
    funext a; apply Fin.ext
    match a with
    | ⟨0, _⟩ => show win1_1.index t (0 : Fin 2) * 5000 + 1 * p.val = win1_5.index t (0 : Fin 2) * 5000 + 1 * p.val; omega
    | ⟨1, _⟩ => show win1_1.index t (1 : Fin 2) * 1 + 1 * 0 = 0; omega
  have h2 : ∀ k : Fin 128, (iblk1 V c 2 t : Vec Ideal S1x128 .f32) (ix2 (0 : Fin 1) k) = V c main_v28 (ix2 (0 : Fin 1) k) := by
    intro k
    unfold iblk1
    rw [View.read_apply]
    show V c main_v28 _ = V c main_v28 _
    congr 1
    funext a; apply Fin.ext
    match a with
    | ⟨0, _⟩ => show win1_2.index t (0 : Fin 2) * 1 + 1 * 0 = 0; omega
    | ⟨1, _⟩ => show win1_2.index t (1 : Fin 2) * 128 + 1 * k.val = k.val; omega
  have h3 : ∀ k : Fin 128, (iblk1 V c 3 t : Vec Ideal S1x128 .f32) (ix2 (0 : Fin 1) k) = V c main_v29 (ix2 (0 : Fin 1) k) := by
    intro k
    unfold iblk1
    rw [View.read_apply]
    show V c main_v29 _ = V c main_v29 _
    congr 1
    funext a; apply Fin.ext
    match a with
    | ⟨0, _⟩ => show win1_3.index t (0 : Fin 2) * 1 + 1 * 0 = 0; omega
    | ⟨1, _⟩ => show win1_3.index t (1 : Fin 2) * 128 + 1 * k.val = k.val; omega
  have h4 : ∀ k : Fin 128, (iblk1 V c 4 t : Vec Ideal S1x128 .f32) (ix2 (0 : Fin 1) k) = V c main_v30 (ix2 (0 : Fin 1) k) := by
    intro k
    unfold iblk1
    rw [View.read_apply]
    show V c main_v30 _ = V c main_v30 _
    congr 1
    funext a; apply Fin.ext
    match a with
    | ⟨0, _⟩ => show win1_4.index t (0 : Fin 2) * 1 + 1 * 0 = 0; omega
    | ⟨1, _⟩ => show win1_4.index t (1 : Fin 2) * 128 + 1 * k.val = k.val; omega
  refine lnRow_congr (funext fun k => ?_) (funext fun k => h3 k) (funext fun k => h4 k) (Fin.ext ?_)
  · dsimp only
    rw [h0 k, h1, h2 k]
  · show q.val = win1_5.index t (1 : Fin 2) * 128 + 1 * q.val
    omega

/-- An index of the result array is in point `t`'s block iff its row is in the block's range. -/
theorem mem_blk (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v31).slice (win1_5.rect t)).set ↔ _
  rw [View.set_slice_whole, Rect.mem_set_unit]
  exact Iff.rfl

/-- The 20 row blocks cover the array. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The result array after the region: the normalised array of the arrays it was entered with. -/
theorem final (c : Dev nD) :
    (dat1 V c).arrAt 5 cfg1.N = normalised (V c main_v27) (V c main_v16) (V c main_v28) (V c main_v29) (V c main_v30) :=
  (dat1 V c).arrAt_eq_of_cover 5 _ (fun t _ => flushed_eq V c t) cover

end Cert.KernelIdeal.KReg1

end
-- ==== Proof.KHost.lean ====
/-
  The kernel program's buffer contents at its segment boundaries, read as array-level terms of the arguments.

  Before the first region the host computes the source and target words and the degree factors; the first region
  leaves the scaled product in its result array; between the regions the host gathers that array's rows at the
  source words and scatter-adds them at the target words, and lays the bias, scale and shift vectors as rows; the
  second region leaves the normalised array in the program's result. Each boundary is a fold of host operations
  over the previous one, read back one stretch at a time.
-/
import proofs.«176098_j48661979464167_2_alg».proof.Proof.Gen.KernelIdeal.Frame
import proofs.«176098_j48661979464167_2_alg».proof.Proof.KHostDefs
import proofs.«176098_j48661979464167_2_alg».proof.Proof.KReg0
import proofs.«176098_j48661979464167_2_alg».proof.Proof.KReg1
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## After the first stretch -/

theorem W1_v3 (c : Dev nD) : W1 m ρ c (Proc.devRef .tc main_v3) = rowsK (m ((c : Thread nD τ).loc main_arg1)) := by
  show StableHlo.after hostOps0 (W0 m ρ c) (Proc.devRef .tc main_v3) = _
  after_results <;> rfl

theorem W1_v6 (c : Dev nD) : W1 m ρ c (Proc.devRef .tc main_v6) = colsK (m ((c : Thread nD τ).loc main_arg1)) := by
  show StableHlo.after hostOps0 (W0 m ρ c) (Proc.devRef .tc main_v6) = _
  after_results <;> rfl

theorem W1_v12 (c : Dev nD) : W1 m ρ c (Proc.devRef .tc main_v12)
    = cmpf .ogt (degK (F := Ideal) (m ((c : Thread nD τ).loc main_arg1)))
        (broadcastInDim S100000 ![] Facts₀.bcast_S_S100000 (constant (F := Ideal) S_ .f32 0x00000000#32)) := by
  show StableHlo.after hostOps0 (W0 m ρ c) (Proc.devRef .tc main_v12) = _
  after_results <;> rfl

theorem W1_v13 (c : Dev nD) : W1 m ρ c (Proc.devRef .tc main_v13)
    = Host.rsqrt (degK (F := Ideal) (m ((c : Thread nD τ).loc main_arg1))) := by
  show StableHlo.after hostOps0 (W0 m ρ c) (Proc.devRef .tc main_v13) = _
  after_results <;> rfl

theorem W1_v14 (c : Dev nD) : W1 m ρ c (Proc.devRef .tc main_v14)
    = broadcastInDim S100000 ![] Facts₀.bcast_S_S100000 (constant (F := Ideal) S_ .f32 0x00000000#32) := by
  show StableHlo.after hostOps0 (W0 m ρ c) (Proc.devRef .tc main_v14) = _
  after_results <;> rfl

/-! ## After the selection of the degree factors and their reshape to a column: the first region's entry -/

theorem W2_v15 (c : Dev nD) : W2 m ρ c (Proc.devRef .tc main_v15) = dinvK (F := Ideal) (m ((c : Thread nD τ).loc main_arg1)) := by
  have e12 := W1_v12 m ρ c
  have e13 := W1_v13 m ρ c
  have e14 := W1_v14 m ρ c
  show StableHlo.after hostOps0_1 (W1 m ρ c) (Proc.devRef .tc main_v15) = _
  unfold dinvK
  rw [← e12, ← e13, ← e14]
  generalize W1 m ρ c = Wx
  after_results <;> rfl

theorem W2_keep (c : Dev nD) (b : Ref sig .tc) (hb : b ≠ main_v15) :
    W2 m ρ c (Proc.devRef .tc b) = W1 m ρ c (Proc.devRef .tc b) :=
  StableHlo.after_of_forall_not_mem (b := Proc.devRef .tc b) _ _ (List.forall_iff_forall_mem.mp (by
    simp only [hostOps0_1, List.Forall, StableHlo.ternary_writes, StableHlo.TRef.ternary, Finset.mem_singleton]
    exact StableHlo.devRef_ne_of_ne hb))

theorem W3_v16 (c : Dev nD) : W3 m ρ c (Proc.devRef .tc main_v16)
    = shapeCast S100000x1 (dinvK (F := Ideal) (m ((c : Thread nD τ).loc main_arg1))) Facts₀.shapeCasts_S100000_S100000x1 := by
  have e15 := W2_v15 m ρ c
  show StableHlo.after hostOps0_2 (W2 m ρ c) (Proc.devRef .tc main_v16) = _
  rw [← e15]
  generalize W2 m ρ c = Wx
  after_results <;> rfl

theorem W3_keep (c : Dev nD) (b : Ref sig .tc) (hb : b ≠ main_v16) :
    W3 m ρ c (Proc.devRef .tc b) = W2 m ρ c (Proc.devRef .tc b) :=
  StableHlo.after_of_forall_not_mem (b := Proc.devRef .tc b) _ _ (List.forall_iff_forall_mem.mp (by
    simp only [hostOps0_2, List.Forall, StableHlo.reshape_writes, Finset.mem_singleton]
    exact StableHlo.devRef_ne_of_ne hb))

/-! ## What the earlier stretches leave untouched -/

theorem W1_arg0 (c : Dev nD) : W1 m ρ c (Proc.devRef .tc main_arg0) = m ((c : Thread nD τ).loc main_arg0) := by
  show StableHlo.after hostOps0 (W0 m ρ c) (Proc.devRef .tc main_arg0) = _
  after_results <;> rfl
theorem W1_arg2 (c : Dev nD) : W1 m ρ c (Proc.devRef .tc main_arg2) = m ((c : Thread nD τ).loc main_arg2) := by
  show StableHlo.after hostOps0 (W0 m ρ c) (Proc.devRef .tc main_arg2) = _
  after_results <;> rfl
theorem W1_arg3 (c : Dev nD) : W1 m ρ c (Proc.devRef .tc main_arg3) = m ((c : Thread nD τ).loc main_arg3) := by
  show StableHlo.after hostOps0 (W0 m ρ c) (Proc.devRef .tc main_arg3) = _
  after_results <;> rfl
theorem W1_arg4 (c : Dev nD) : W1 m ρ c (Proc.devRef .tc main_arg4) = m ((c : Thread nD τ).loc main_arg4) := by
  show StableHlo.after hostOps0 (W0 m ρ c) (Proc.devRef .tc main_arg4) = _
  after_results <;> rfl
theorem W1_arg5 (c : Dev nD) : W1 m ρ c (Proc.devRef .tc main_arg5) = m ((c : Thread nD τ).loc main_arg5) := by
  show StableHlo.after hostOps0 (W0 m ρ c) (Proc.devRef .tc main_arg5) = _
  after_results <;> rfl

theorem W3_of_W1 (c : Dev nD) (b : Ref sig .tc) (h15 : b ≠ main_v15) (h16 : b ≠ main_v16) :
    W3 m ρ c (Proc.devRef .tc b) = W1 m ρ c (Proc.devRef .tc b) :=
  (W3_keep m ρ c b h16).trans (W2_keep m ρ c b h15)

/-! ## The first region's exit -/

theorem W4_v17 (c : Dev nD) : W4 m ρ c (Proc.devRef .tc main_v17)
    = KReg0.scaledProduct (m ((c : Thread nD τ).loc main_arg0))
        (shapeCast S100000x1 (dinvK (F := Ideal) (m ((c : Thread nD τ).loc main_arg1))) Facts₀.shapeCasts_S100000_S100000x1)
        (m ((c : Thread nD τ).loc main_arg2)) := by
  refine (W4_arr m ρ c 3).trans ((KReg0.final (V3 m ρ) c).trans ?_)
  show KReg0.scaledProduct (W3 m ρ c (Proc.devRef .tc main_arg0)) (W3 m ρ c (Proc.devRef .tc main_v16))
    (W3 m ρ c (Proc.devRef .tc main_arg2)) = _
  rw [W3_v16, W3_of_W1 m ρ c main_arg0 (by decide) (by decide), W3_of_W1 m ρ c main_arg2 (by decide) (by decide), W1_arg0, W1_arg2]

theorem W4_v16 (c : Dev nD) : W4 m ρ c (Proc.devRef .tc main_v16)
    = shapeCast S100000x1 (dinvK (F := Ideal) (m ((c : Thread nD τ).loc main_arg1))) Facts₀.shapeCasts_S100000_S100000x1 :=
  ((W4_arr m ρ c 1).trans (((dat0 (V3 m ρ) c).arrAt_in 1 rfl _).trans (A_eq0 (V3 m ρ) c 1))).trans (W3_v16 m ρ c)

theorem W4_of_W1 (c : Dev nD) (b : Ref sig .tc) (hb : ∀ w, Pipeline.arrRef spec0 w ≠ b) (h15 : b ≠ main_v15) (h16 : b ≠ main_v16) :
    W4 m ρ c (Proc.devRef .tc b) = W1 m ρ c (Proc.devRef .tc b) :=
  (W4_of_ne m ρ c b hb).trans (W3_of_W1 m ρ c b h15 h16)

/-! ## The second region's entry -/

theorem W5_v27 (c : Dev nD) : W5 m ρ c (Proc.devRef .tc main_v27)
    = aggArr (F := Ideal) (W4 m ρ c (Proc.devRef .tc main_v17)) (W4 m ρ c (Proc.devRef .tc main_v3)) (W4 m ρ c (Proc.devRef .tc main_v6)) := by
  show StableHlo.after hostOps1 (W4 m ρ c) (Proc.devRef .tc main_v27) = _
  generalize W4 m ρ c = Wx
  after_results <;> rfl

theorem W5_v16 (c : Dev nD) : W5 m ρ c (Proc.devRef .tc main_v16) = W4 m ρ c (Proc.devRef .tc main_v16) := by
  show StableHlo.after hostOps1 (W4 m ρ c) (Proc.devRef .tc main_v16) = _
  generalize W4 m ρ c = Wx
  after_results <;> rfl

theorem W5_v28 (c : Dev nD) : W5 m ρ c (Proc.devRef .tc main_v28)
    = shapeCast S1x128 (W4 m ρ c (Proc.devRef .tc main_arg3)) Facts₀.shapeCasts_S128_S1x128 := by
  show StableHlo.after hostOps1 (W4 m ρ c) (Proc.devRef .tc main_v28) = _
  generalize W4 m ρ c = Wx
  after_results <;> rfl
theorem W5_v29 (c : Dev nD) : W5 m ρ c (Proc.devRef .tc main_v29)
    = shapeCast S1x128 (W4 m ρ c (Proc.devRef .tc main_arg4)) Facts₀.shapeCasts_S128_S1x128 := by
  show StableHlo.after hostOps1 (W4 m ρ c) (Proc.devRef .tc main_v29) = _
  generalize W4 m ρ c = Wx
  after_results <;> rfl
theorem W5_v30 (c : Dev nD) : W5 m ρ c (Proc.devRef .tc main_v30)
    = shapeCast S1x128 (W4 m ρ c (Proc.devRef .tc main_arg5)) Facts₀.shapeCasts_S128_S1x128 := by
  show StableHlo.after hostOps1 (W4 m ρ c) (Proc.devRef .tc main_v30) = _
  generalize W4 m ρ c = Wx
  after_results <;> rfl

/-! ## The result -/

/-- The program's result buffer at the last boundary: the normalised array of the aggregate of the scaled product. -/
theorem result_eq (c : Dev nD) : W6 m ρ c (Proc.devRef .tc main_v31)
    = KReg1.normalised
        (aggArr (F := Ideal)
          (KReg0.scaledProduct (m ((c : Thread nD τ).loc main_arg0))
            (shapeCast S100000x1 (dinvK (F := Ideal) (m ((c : Thread nD τ).loc main_arg1))) Facts₀.shapeCasts_S100000_S100000x1)
            (m ((c : Thread nD τ).loc main_arg2)))
          (rowsK (m ((c : Thread nD τ).loc main_arg1))) (colsK (m ((c : Thread nD τ).loc main_arg1))))
        (shapeCast S100000x1 (dinvK (F := Ideal) (m ((c : Thread nD τ).loc main_arg1))) Facts₀.shapeCasts_S100000_S100000x1)
        (shapeCast S1x128 (m ((c : Thread nD τ).loc main_arg3)) Facts₀.shapeCasts_S128_S1x128)
        (shapeCast S1x128 (m ((c : Thread nD τ).loc main_arg4)) Facts₀.shapeCasts_S128_S1x128)
        (shapeCast S1x128 (m ((c : Thread nD τ).loc main_arg5)) Facts₀.shapeCasts_S128_S1x128) := by
  refine (W6_arr m ρ c 5).trans ((KReg1.final (V5 m ρ) c).trans ?_)
  show KReg1.normalised (W5 m ρ c (Proc.devRef .tc main_v27)) (W5 m ρ c (Proc.devRef .tc main_v16))
    (W5 m ρ c (Proc.devRef .tc main_v28)) (W5 m ρ c (Proc.devRef .tc main_v29)) (W5 m ρ c (Proc.devRef .tc main_v30)) = _
  rw [W5_v27, W5_v16, W5_v28, W5_v29, W5_v30, W4_v17, W4_v16,
    W4_of_W1 m ρ c main_v3 (by decide) (by decide) (by decide), W4_of_W1 m ρ c main_v6 (by decide) (by decide) (by decide),
    W4_of_W1 m ρ c main_arg3 (by decide) (by decide) (by decide), W4_of_W1 m ρ c main_arg4 (by decide) (by decide) (by decide),
    W4_of_W1 m ρ c main_arg5 (by decide) (by decide) (by decide),
    W1_v3, W1_v6, W1_arg3, W1_arg4, W1_arg5]

end Cert.KernelIdeal.KHost

end
-- ==== Proof.LibGatherCols.lean ====
/-
  `stablehlo.gather` READ AT AN INDEX, for start indices of shape `[M, 1]` with the index vector on axis 1 (what
  `x[idx]` lowers to for an integer vector `idx : [M]`), in two layouts of the operand.

  * Flat operand `x : [N]` (offset_dims `[]`, collapsed_slice_dims `[0]`, start_index_map `[0]`, slice_sizes `[1]`):
    result element `e` is `x` at the start index `idx[e, 0]`, read as a signed integer and clamped into `[0, N − 1]`
    (`gather_flat_apply`).
  * Table operand `x : [N, C]` (offset_dims `[1]`, collapsed_slice_dims `[0]`, start_index_map `[0]`, slice_sizes
    `[1, C]`): result element `(e, c)` is `x` at row `idx[e, 0]` (signed, clamped into `[0, N − 1]`) and column `c`
    (`gather_rows_apply`): axis 0 of the operand is collapsed and start-indexed, axis 1 is the offset axis, whose
    slice is the whole axis, so its start is 0 and its offset coordinate is the result's column.

  Both hold for variable extents `N`, `C`, `M` and any index width `w`.
-/
import Idealize.ShloMosaic.Lib.ValueIdx

noncomputable section

open scoped BigOperators

namespace Cert.Lib.GatherCols

open Idealize.ShloMosaic Idealize.ShloMosaic.ValueIdx

variable {α : Type}

/-! ## Flat operand `[N]`, start indices `[M, 1]`, result `[M]` -/

/-- The dimension numbers of a gather of single elements of a flat operand `[N]` at start indices `[M, 1]`
    (index vector on axis 1), result `[M]`; their conditions `wf` are decided on a program's literal shapes. -/
abbrev flatDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- The flat gather read at `e`: the operand at the start index `idx[e, 0]`, read signed and clamped into
    `[0, N − 1]`. -/
theorem gather_flat_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (flatDims N M wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (flatDims N M wf).start (ix1 e) idx 0 + (flatDims N M wf).batchCoord (ix1 e) 0
    + (flatDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N M wf).startIndexMap from List.mem_singleton.mpr rfl)]
  have hsi : (flatDims N M wf).siIdx (ix1 e) ⟨List.idxOf (0 : Fin 1) (flatDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Table operand `[N, C]`, start indices `[M, 1]`, result `[M, C]` -/

/-- The dimension numbers of a gather of whole rows of a table `[N, C]` at start indices `[M, 1]` (index vector on
    axis 1), result `[M, C]`: axis 0 collapsed and start-indexed, axis 1 the offset axis with slice size `C`. -/
abbrev rowDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The row gather read at `(e, c)`: the table at row `idx[e, 0]`, read signed and clamped into `[0, N − 1]`, and
    column `c`. -/
theorem gather_rows_apply {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (c : Fin C) :
    Host.gather (rowDims N C M wf) x idx (ix2 e c)
      = x (ix2 ⟨min (idx (ix2 e (0 : Fin 1))).toInt.toNat (N - 1), by omega⟩ c) := by
  unfold Host.gather
  congr 1
  funext a
  refine Fin.ext ?_
  show (rowDims N C M wf).start (ix2 e c) idx a + (rowDims N C M wf).batchCoord (ix2 e c) a
    + (rowDims N C M wf).offCoord (ix2 e c) a = _
  rw [GatherDims.batchCoord_eq_zero _ _ _ List.not_mem_nil, Nat.add_zero]
  match a with
  | ⟨0, _⟩ =>
    -- the collapsed, start-indexed axis: no offset coordinate, the start is the clamped index
    rw [GatherDims.offCoord_eq_zero _ _ _
      (fun h => ((GatherDims.mem_sKept _ _).mp h).1 (List.mem_singleton.mpr rfl)), Nat.add_zero]
    unfold GatherDims.start
    rw [dif_pos (show (⟨0, by omega⟩ : Fin 2) ∈ (rowDims N C M wf).startIndexMap from List.mem_singleton.mpr rfl)]
    have hsi : (rowDims N C M wf).siIdx (ix2 e c)
        ⟨List.idxOf (⟨0, by omega⟩ : Fin 2) (rowDims N C M wf).startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- the offset axis: not in the start index map, so the start is 0; the offset coordinate is the result's column
    have hk : (⟨1, by omega⟩ : Fin 2) ∈ (rowDims N C M wf).sKept :=
      (GatherDims.mem_sKept _ _).mpr
        ⟨fun h => Nat.one_ne_zero (congrArg Fin.val (List.mem_singleton.mp h)), List.not_mem_nil⟩
    have hs : (rowDims N C M wf).start (ix2 e c) idx ⟨1, by omega⟩ = 0 := by
      unfold GatherDims.start
      rw [dif_neg (fun h => Nat.one_ne_zero (congrArg Fin.val (List.mem_singleton.mp h)))]
    rw [hs, Nat.zero_add]
    unfold GatherDims.offCoord
    rw [dif_pos hk]
    rfl

end Cert.Lib.GatherCols

end
-- ==== Proof.LibScatterRows.lean ====
/-
  THE ACCUMULATING SCATTER OF ROWS, READ AT AN ENTRY.

  For an operand `x : [N, C]`, scatter indices `idx : [M, 1]` (one scalar row index per update row) and updates
  `upd : [M, C]`, the accumulating scatter (`x.at[idx].add(upd)`, whole rows added at the indexed rows) at the ideal
  instance is, at entry `(i, c)`, `x i c` plus the sum of the update entries `upd j c` over the update rows `j` whose
  index `idx[j, 0]`, read as a signed integer, is `i` (`scatterAdd_rows_apply`); an update row whose index is outside
  `[0, N)` contributes nothing.

  Axis 0 of the operand is the inserted, index-addressed axis: the window of update entry `(j, c')` starts there at
  `idx[j, 0]` and has window coordinate `0`. Axis 1 is the update window axis: the window starts there at `0` and the
  window coordinate is `c'`. So update entry `(j, c')` lands on `(i, c)` exactly when `idx[j, 0] = i` and `c' = c`; the
  sum over the rank-2 update index set is the double sum over `(j, c')`, and the inner sum over `c'` is its one term
  `c' = c`.
-/
import Idealize.ShloMosaic.Lib.ValueIdx

noncomputable section

open scoped BigOperators

namespace Cert.Lib.ScatterRows

open Idealize.ShloMosaic Idealize.ShloMosaic.ValueIdx

/-- The dimension numbers of `x.at[idx].add(upd)` for an operand `[N, C]`, scatter indices `[M, 1]` and updates
    `[M, C]`: the updates' axis 1 is the one update window axis, the operand's axis 0 is inserted, and each index
    vector is one scalar addressing it. -/
abbrev rowDims (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

variable {N C M w : Nat} (wf : ScatterDims.WF ⟨2, ![N, C]⟩ ⟨2, ![M, 1]⟩ ⟨2, ![M, C]⟩ [1] [0] [0] 1)

/-- On the operand's axis 0 the window of update entry `(j, c')` starts at the scatter index `idx[j, 0]` read signed. -/
theorem start_zero (idx : IVec ⟨2, ![M, 1]⟩ w) (j : Fin M) (c' : Fin C) :
    (rowDims N C M wf).start (ix2 j c') idx 0 = (idx (ix2 j (0 : Fin 1))).toInt := by
  unfold ScatterDims.start
  rw [dif_pos (show (0 : Fin 2) ∈ (rowDims N C M wf).scatterDimsToOperandDims from List.mem_singleton.mpr rfl)]
  have hsi : (rowDims N C M wf).siIdx (ix2 j c') ⟨List.idxOf (0 : Fin 2) (rowDims N C M wf).scatterDimsToOperandDims,
      List.idxOf_lt_length_iff.2 (List.mem_singleton.mpr rfl)⟩ = ix2 j (0 : Fin 1) := by
    funext b; refine Fin.ext ?_
    match b with
    | ⟨0, _⟩ => rfl
    | ⟨1, _⟩ => rfl
  rw [hsi]

/-- On the operand's axis 1, which no index component addresses, the window starts at `0`. -/
theorem start_one (idx : IVec ⟨2, ![M, 1]⟩ w) (j : Fin M) (c' : Fin C) :
    (rowDims N C M wf).start (ix2 j c') idx 1 = 0 := by
  unfold ScatterDims.start
  rw [dif_neg]
  simp

/-- The operand's axis 0 is an inserted window axis: the window coordinate on it is `0`. -/
theorem window_zero (j : Fin M) (c' : Fin C) : (rowDims N C M wf).window (ix2 j c') 0 = 0 := by
  unfold ScatterDims.window
  rw [dif_neg]
  simp [ScatterDims.sKept, Shape.kept]

/-- The operand's axis 1 carries the update window axis: the window coordinate on it is the update's column `c'`. -/
theorem window_one (j : Fin M) (c' : Fin C) : (rowDims N C M wf).window (ix2 j c') 1 = c'.val := by
  unfold ScatterDims.window
  rw [dif_pos (show (1 : Fin 2) ∈ (rowDims N C M wf).sKept by simp [ScatterDims.sKept, Shape.kept])]
  rfl

/-- Start plus window coordinate of update entry `(j, c')` on axis 0: its scatter index read signed. -/
theorem start_add_window_zero (idx : IVec ⟨2, ![M, 1]⟩ w) (j : Fin M) (c' : Fin C) :
    (rowDims N C M wf).start (ix2 j c') idx 0 + ((rowDims N C M wf).window (ix2 j c') 0 : ℤ)
      = (idx (ix2 j (0 : Fin 1))).toInt := by
  rw [start_zero, window_zero]; simp

/-- Start plus window coordinate of update entry `(j, c')` on axis 1: its column `c'`. -/
theorem start_add_window_one (idx : IVec ⟨2, ![M, 1]⟩ w) (j : Fin M) (c' : Fin C) :
    (rowDims N C M wf).start (ix2 j c') idx 1 + ((rowDims N C M wf).window (ix2 j c') 1 : ℤ) = (c'.val : ℤ) := by
  rw [start_one, window_one]; simp

/-- Update entry `(j, c')` lands on entry `(i, c)` exactly when its scatter index, read signed, is `i` and `c' = c`. -/
theorem resultIdx?_eq_some_iff (idx : IVec ⟨2, ![M, 1]⟩ w) (j : Fin M) (c' : Fin C) (i : Fin N) (c : Fin C) :
    (rowDims N C M wf).resultIdx? (ix2 j c') idx = some (ix2 i c)
      ↔ (idx (ix2 j (0 : Fin 1))).toInt = (i.val : ℤ) ∧ c' = c := by
  unfold ScatterDims.resultIdx?
  constructor
  · intro h
    split at h
    · rename_i hall
      have h0 := congrArg Fin.val (congrFun (Option.some.inj h) (0 : Fin 2))
      have h1 := congrArg Fin.val (congrFun (Option.some.inj h) (1 : Fin 2))
      have hb := hall (0 : Fin 2)
      rw [start_add_window_zero] at hb
      change ((rowDims N C M wf).start (ix2 j c') idx 0 + ((rowDims N C M wf).window (ix2 j c') 0 : ℤ)).toNat
        = i.val at h0
      change ((rowDims N C M wf).start (ix2 j c') idx 1 + ((rowDims N C M wf).window (ix2 j c') 1 : ℤ)).toNat
        = c.val at h1
      rw [start_add_window_zero] at h0
      rw [start_add_window_one] at h1
      refine ⟨by omega, Fin.ext (by omega)⟩
    · exact absurd h (by simp)
  · rintro ⟨hz, rfl⟩
    have hall : ∀ a : Fin 2, 0 ≤ (rowDims N C M wf).start (ix2 j c') idx a + ((rowDims N C M wf).window (ix2 j c') a : ℤ)
        ∧ (rowDims N C M wf).start (ix2 j c') idx a + ((rowDims N C M wf).window (ix2 j c') a : ℤ)
            < ((⟨2, ![N, C]⟩ : Shape).size a : ℤ) := by
      intro a
      match a with
      | ⟨0, _⟩ =>
        have e := start_add_window_zero wf idx j c'
        have hi : (i.val : ℤ) < (N : ℤ) := by exact_mod_cast i.isLt
        refine ⟨?_, ?_⟩
        · change 0 ≤ (rowDims N C M wf).start (ix2 j c') idx 0 + ((rowDims N C M wf).window (ix2 j c') 0 : ℤ)
          rw [e, hz]; omega
        · change (rowDims N C M wf).start (ix2 j c') idx 0 + ((rowDims N C M wf).window (ix2 j c') 0 : ℤ) < (N : ℤ)
          rw [e, hz]; exact hi
      | ⟨1, _⟩ =>
        have e := start_add_window_one wf idx j c'
        have hc : (c'.val : ℤ) < (C : ℤ) := by exact_mod_cast c'.isLt
        refine ⟨?_, ?_⟩
        · change 0 ≤ (rowDims N C M wf).start (ix2 j c') idx 1 + ((rowDims N C M wf).window (ix2 j c') 1 : ℤ)
          rw [e]; omega
        · change (rowDims N C M wf).start (ix2 j c') idx 1 + ((rowDims N C M wf).window (ix2 j c') 1 : ℤ) < (C : ℤ)
          rw [e]; exact hc
    rw [dif_pos hall]
    congr 1
    funext a
    refine Fin.ext ?_
    match a with
    | ⟨0, _⟩ =>
      change ((rowDims N C M wf).start (ix2 j c') idx 0 + ((rowDims N C M wf).window (ix2 j c') 0 : ℤ)).toNat = i.val
      rw [start_add_window_zero, hz]; omega
    | ⟨1, _⟩ =>
      change ((rowDims N C M wf).start (ix2 j c') idx 1 + ((rowDims N C M wf).window (ix2 j c') 1 : ℤ)).toNat = c'.val
      rw [start_add_window_one]; omega

/-- The scatter read at entry `(i, c)`: the operand's entry plus the column-`c` entries of the update rows whose
    scatter index is `i`. -/
theorem scatterAdd_rows_apply {φ : FTy} (x : FVec Ideal ⟨2, ![N, C]⟩ φ) (idx : IVec ⟨2, ![M, 1]⟩ w)
    (upd : FVec Ideal ⟨2, ![M, C]⟩ φ) (i : Fin N) (c : Fin C) :
    Host.scatterAdd (F := Ideal) (rowDims N C M wf) x idx upd (ix2 i c)
      = x (ix2 i c) + ∑ j : Fin M, if (idx (ix2 j (0 : Fin 1))).toInt = (i.val : ℤ) then upd (ix2 j c) else 0 := by
  show Ideal.hostScatterAdd (rowDims N C M wf) x idx upd (ix2 i c) = _
  unfold Ideal.hostScatterAdd
  congr 1
  rw [Finset.sum_filter, sum_idx2]
  refine Finset.sum_congr rfl fun j _ => ?_
  have hinner : ∀ c' : Fin C,
      (if (rowDims N C M wf).resultIdx? (ix2 j c') idx = some (ix2 i c) then upd (ix2 j c') else 0)
        = if c = c' then (if (idx (ix2 j (0 : Fin 1))).toInt = (i.val : ℤ) then upd (ix2 j c') else 0) else 0 := by
    intro c'
    by_cases hcc : c = c'
    · subst hcc
      rw [if_pos rfl]
      by_cases h : (idx (ix2 j (0 : Fin 1))).toInt = (i.val : ℤ)
      · rw [if_pos h, if_pos ((resultIdx?_eq_some_iff wf idx j c i c).2 ⟨h, rfl⟩)]
      · rw [if_neg h, if_neg (fun h' => h ((resultIdx?_eq_some_iff wf idx j c i c).1 h').1)]
    · rw [if_neg hcc, if_neg (fun h' => hcc ((resultIdx?_eq_some_iff wf idx j c' i c).1 h').2.symm)]
  rw [Finset.sum_congr rfl (fun c' _ => hinner c'), Finset.sum_ite_eq, if_pos (Finset.mem_univ c)]

end Cert.Lib.ScatterRows

end
-- ==== Proof.RefValue.lean ====
/-
  THE REFERENCE PROGRAM'S RESULT READ AT AN ENTRY.

  The reference computes one graph-convolution layer followed by a layer normalisation and a clip at zero. Read one
  operation at a time, its result at node `i`, feature `c` is `layerNormRelu (aggR …) g be i c` of the specification:

  * the two flat gathers of the inverse-square-root degrees `d` read `d` at the clamped source and target words of
    edge entry `j`; their product is the entry's scale;
  * the row gather of the product `x · w` reads row `clampN (source word of j)`, a sum over the 128 input features;
  * the accumulating row scatter adds, into node `i`, the scaled rows of the entries whose target word, read as a
    signed integer, is `i`, onto a zero table; the bias is added after: this is `aggR`;
  * the two sums over the 128 features give the mean and the biased variance; the rest is elementwise.
-/
import proofs.«176098_j48661979464167_2_alg».proof.Proof.RefReadP
import proofs.«176098_j48661979464167_2_alg».proof.Proof.GcnSpec
import proofs.«176098_j48661979464167_2_alg».proof.Proof.LibGatherCols
import proofs.«176098_j48661979464167_2_alg».proof.Proof.LibScatterRows

noncomputable section

open scoped BigOperators

namespace Cert.RefValue

open Idealize.ShloMosaic Idealize.ShloMosaic.ValueIdx Cert.ReferenceIdeal Cert.ReferenceIdeal.ReadP Cert.GcnSpec

/-! ## The edge entries' index words and scales -/

/-- The normalised source word is computed twice by the program (once for each gather that uses it), from the same
    operands by the same operations. -/
theorem v36_eq_v20 (e : IVec S2x1600000 32) : val_main_v36 (F := Ideal) e = val_main_v20 (F := Ideal) e := rfl

/-- The gather of `d` at the source words: entry `j` reads `d` at the clamped source word. -/
theorem v22_at (e : IVec S2x1600000 32) (j : Fin 1700000) :
    val_main_v22 (F := Ideal) e (ix1 j)
      = val_main_v15 (F := Ideal) e (ix1 (clampN (val_main_v20 (F := Ideal) e (ix1 j)))) := by
  have hw : val_main_v21 (F := Ideal) e (ix2 j (0 : Fin 1)) = val_main_v20 (F := Ideal) e (ix1 j) :=
    (val_main_v21_apply e _).trans (congrArg (val_main_v20 (F := Ideal) e)
      (funext fun a => Fin.ext (by match a with | ⟨0, _⟩ => rfl)))
  unfold val_main_v22
  refine (Cert.Lib.GatherCols.gather_flat_apply (N := 100000) (M := 1700000) (by omega) _
    (val_main_v15 (F := Ideal) e) (val_main_v21 (F := Ideal) e) j).trans ?_
  exact congrArg (fun v : BitVec 32 => val_main_v15 (F := Ideal) e (ix1 (clampN v))) hw

/-- The gather of `d` at the target words: entry `j` reads `d` at the clamped target word. -/
theorem v29_at (e : IVec S2x1600000 32) (j : Fin 1700000) :
    val_main_v29 (F := Ideal) e (ix1 j)
      = val_main_v15 (F := Ideal) e (ix1 (clampN (val_main_v27 (F := Ideal) e (ix1 j)))) := by
  have hw : val_main_v28 (F := Ideal) e (ix2 j (0 : Fin 1)) = val_main_v27 (F := Ideal) e (ix1 j) :=
    (val_main_v28_apply e _).trans (congrArg (val_main_v27 (F := Ideal) e)
      (funext fun a => Fin.ext (by match a with | ⟨0, _⟩ => rfl)))
  unfold val_main_v29
  refine (Cert.Lib.GatherCols.gather_flat_apply (N := 100000) (M := 1700000) (by omega) _
    (val_main_v15 (F := Ideal) e) (val_main_v28 (F := Ideal) e) j).trans ?_
  exact congrArg (fun v : BitVec 32 => val_main_v15 (F := Ideal) e (ix1 (clampN v))) hw

/-- The scale of entry `j`: the product of the two degree factors. -/
theorem v30_at (e : IVec S2x1600000 32) (j : Fin 1700000) :
    val_main_v30 (F := Ideal) e (ix1 j)
      = val_main_v15 (F := Ideal) e (ix1 (clampN (val_main_v20 (F := Ideal) e (ix1 j))))
        * val_main_v15 (F := Ideal) e (ix1 (clampN (val_main_v27 (F := Ideal) e (ix1 j)))) := by
  rw [val_main_v30_apply, v22_at, v29_at]
  rfl

/-- The scale broadcast along the features. -/
theorem v40_at (e : IVec S2x1600000 32) (j : Fin 1700000) (c : Fin 128) :
    val_main_v40 (F := Ideal) e (ix2 j c) = val_main_v30 (F := Ideal) e (ix1 j) := by
  rw [val_main_v40_apply, val_main_v39_apply]
  exact congrArg (val_main_v30 (F := Ideal) e) (funext fun a => Fin.ext (by match a with | ⟨0, _⟩ => rfl))

/-! ## The transformed source rows, the scatter and the bias -/

/-- The row gather of `x · w`: entry `j` reads the row at the clamped source word, a sum over the input features. -/
theorem v38_at (x : FVec Ideal S100000x128 .f32) (e : IVec S2x1600000 32) (w : FVec Ideal S128x128 .f32)
    (j : Fin 1700000) (c : Fin 128) :
    val_main_v38 (F := Ideal) x e w (ix2 j c)
      = ∑ k : Fin 128, x (ix2 (clampN (val_main_v20 (F := Ideal) e (ix1 j))) k) * w (ix2 k c) := by
  have hw : val_main_v37 (F := Ideal) e (ix2 j (0 : Fin 1)) = val_main_v20 (F := Ideal) e (ix1 j) :=
    (val_main_v37_apply e _).trans (congrArg (val_main_v20 (F := Ideal) e)
      (funext fun a => Fin.ext (by match a with | ⟨0, _⟩ => rfl)))
  unfold val_main_v38
  refine (Cert.Lib.GatherCols.gather_rows_apply (N := 100000) (C := 128) (M := 1700000) (by omega) _
    (val_main_v31 (F := Ideal) x w) (val_main_v37 (F := Ideal) e) j c).trans ?_
  refine (congrArg (fun v : BitVec 32 => val_main_v31 (F := Ideal) x w (ix2 (clampN v) c)) hw).trans ?_
  generalize clampN (val_main_v20 (F := Ideal) e (ix1 j)) = n
  show val_main_v31 (F := Ideal) x w (ix2 n c) = _
  rw [val_main_v31_apply]
  refine Finset.sum_congr rfl fun k _ => ?_
  have hl : lidx_main_v31 (ix2 n c) k = ix2 n k :=
    funext fun a => Fin.ext (by match a with | ⟨0, _⟩ => rfl | ⟨1, _⟩ => rfl)
  have hr : ridx_main_v31 (ix2 n c) k = ix2 k c :=
    funext fun a => Fin.ext (by match a with | ⟨0, _⟩ => rfl | ⟨1, _⟩ => rfl)
  rw [hl, hr]

/-- The scaled row of entry `j`. -/
theorem v41_at (x : FVec Ideal S100000x128 .f32) (e : IVec S2x1600000 32) (w : FVec Ideal S128x128 .f32)
    (j : Fin 1700000) (c : Fin 128) :
    val_main_v41 (F := Ideal) x e w (ix2 j c)
      = (∑ k : Fin 128, x (ix2 (clampN (val_main_v20 (F := Ideal) e (ix1 j))) k) * w (ix2 k c))
        * (val_main_v15 (F := Ideal) e (ix1 (clampN (val_main_v20 (F := Ideal) e (ix1 j))))
          * val_main_v15 (F := Ideal) e (ix1 (clampN (val_main_v27 (F := Ideal) e (ix1 j))))) := by
  rw [val_main_v41_apply, v38_at, v40_at, v30_at]
  rfl

/-- The scatter's index word of entry `j` is its target word. -/
theorem v43_at (e : IVec S2x1600000 32) (j : Fin 1700000) :
    val_main_v43 (F := Ideal) e (ix2 j (0 : Fin 1)) = val_main_v6 (F := Ideal) e (ix1 j) := by
  rw [val_main_v43_apply]
  exact congrArg (val_main_v6 (F := Ideal) e) (funext fun a => Fin.ext (by match a with | ⟨0, _⟩ => rfl))

/-- The table the scatter accumulates into is zero. -/
theorem v42_at (p : S100000x128.Idx) : val_main_v42 (F := Ideal) p = 0 := by
  rw [val_main_v42_apply, val_main_cst_8_apply]
  exact Ideal.ofBits_zero_f32

/-- The accumulating scatter at node `i`, feature `c`: the scaled rows of the entries whose target word is `i`. -/
theorem v44_at (x : FVec Ideal S100000x128 .f32) (e : IVec S2x1600000 32) (w : FVec Ideal S128x128 .f32)
    (i : Fin 100000) (c : Fin 128) :
    val_main_v44 (F := Ideal) x e w (ix2 i c)
      = ∑ j : Fin 1700000, if (val_main_v6 (F := Ideal) e (ix1 j)).toInt = (i.val : ℤ) then
          (∑ k : Fin 128, x (ix2 (clampN (val_main_v20 (F := Ideal) e (ix1 j))) k) * w (ix2 k c))
            * (val_main_v15 (F := Ideal) e (ix1 (clampN (val_main_v20 (F := Ideal) e (ix1 j))))
              * val_main_v15 (F := Ideal) e (ix1 (clampN (val_main_v27 (F := Ideal) e (ix1 j))))) else 0 := by
  unfold val_main_v44
  refine (Cert.Lib.ScatterRows.scatterAdd_rows_apply (N := 100000) (C := 128) (M := 1700000) _
    (val_main_v42 (F := Ideal)) (val_main_v43 (F := Ideal) e) (val_main_v41 (F := Ideal) x e w) i c).trans ?_
  rw [v42_at, zero_add]
  refine Finset.sum_congr rfl fun j _ => ?_
  rw [v43_at, v41_at]

/-- The bias broadcast along the nodes. -/
theorem v46_at (b : FVec Ideal S128 .f32) (i : Fin 100000) (c : Fin 128) :
    val_main_v46 (F := Ideal) b (ix2 i c) = b (ix1 c) := by
  rw [val_main_v46_apply, val_main_v45_apply]
  exact congrArg b (funext fun a => Fin.ext (by match a with | ⟨0, _⟩ => rfl))

/-- The aggregate with the bias, as the specification writes it. -/
abbrev agg (x : FVec Ideal S100000x128 .f32) (e : IVec S2x1600000 32) (w : FVec Ideal S128x128 .f32)
    (b : FVec Ideal S128 .f32) : Fin 100000 → Fin 128 → EReal :=
  aggR (fun n k => x (ix2 n k)) (fun k q => w (ix2 k q)) (fun n => val_main_v15 (F := Ideal) e (ix1 n))
    (fun q => b (ix1 q)) (fun j => val_main_v20 (F := Ideal) e (ix1 j)) (fun j => val_main_v6 (F := Ideal) e (ix1 j))
    (fun j => val_main_v27 (F := Ideal) e (ix1 j))

theorem v47_at (x : FVec Ideal S100000x128 .f32) (e : IVec S2x1600000 32) (w : FVec Ideal S128x128 .f32)
    (b : FVec Ideal S128 .f32) (i : Fin 100000) (c : Fin 128) :
    val_main_v47 (F := Ideal) x e w b (ix2 i c) = agg x e w b i c := by
  rw [val_main_v47_apply, v44_at, v46_at]
  rfl

/-! ## The layer normalisation and the clip -/

section LN

variable (x : FVec Ideal S100000x128 .f32) (e : IVec S2x1600000 32) (w : FVec Ideal S128x128 .f32)
  (b g be : FVec Ideal S128 .f32)

/-- The zero word is the extended real `0`. -/
theorem zero32 : FloatOps.ofBits (F := Ideal) .f32 0x00000000#32 = 0 := Ideal.ofBits_zero_f32

/-- The mean of node `i`'s 128 values. -/
abbrev mean (i : Fin 100000) : EReal := Ideal.div (∑ k : Fin 128, agg x e w b i k) c128

/-- The biased variance of node `i`'s 128 values. -/
abbrev var (i : Fin 100000) : EReal :=
  Ideal.div (∑ k : Fin 128, (agg x e w b i k - mean x e w b i) * (agg x e w b i k - mean x e w b i)) c128

/-- The first sum over the features. -/
theorem v48_at (i : Fin 100000) :
    val_main_v48 (F := Ideal) x e w b (ix1 i) = ∑ k : Fin 128, agg x e w b i k := by
  rw [val_main_v48_apply, val_main_cst_9_apply, zero32, zero_add]
  refine Finset.sum_congr rfl fun k _ => ?_
  have hi : idx_main_v48 (ix1 i) k = ix2 i k :=
    funext fun a => Fin.ext (by match a with | ⟨0, _⟩ => rfl | ⟨1, _⟩ => rfl)
  rw [hi, v47_at]

/-- The mean, as a column. -/
theorem v51_at (i : Fin 100000) :
    val_main_v51 (F := Ideal) x e w b (ix2 i (0 : Fin 1)) = mean x e w b i := by
  rw [val_main_v51_apply, val_main_v49_apply, val_main_v50_apply, val_main_cst_10_apply]
  have hi : idx_main_v49 (ix2 i (0 : Fin 1)) = ix1 i :=
    funext fun a => Fin.ext (by match a with | ⟨0, _⟩ => rfl)
  rw [hi, v48_at]
  rfl

/-- The centred value (the operand of the square). -/
theorem v53_at (i : Fin 100000) (c : Fin 128) :
    val_main_v53 (F := Ideal) x e w b (ix2 i c) = agg x e w b i c - mean x e w b i := by
  rw [val_main_v53_apply, val_main_v52_apply, v47_at]
  have hi : idx_main_v52 (ix2 i c) = ix2 i (0 : Fin 1) :=
    funext fun a => Fin.ext (by match a with | ⟨0, _⟩ => rfl | ⟨1, _⟩ => rfl)
  rw [hi, v51_at]
  rfl

/-- The centred value (the operand of the scaling). -/
theorem v60_at (i : Fin 100000) (c : Fin 128) :
    val_main_v60 (F := Ideal) x e w b (ix2 i c) = agg x e w b i c - mean x e w b i := by
  rw [val_main_v60_apply, val_main_v59_apply, v47_at]
  have hi : idx_main_v59 (ix2 i c) = ix2 i (0 : Fin 1) :=
    funext fun a => Fin.ext (by match a with | ⟨0, _⟩ => rfl | ⟨1, _⟩ => rfl)
  rw [hi, v51_at]
  rfl

/-- The second sum over the features: of the squared centred values. -/
theorem v55_at (i : Fin 100000) :
    val_main_v55 (F := Ideal) x e w b (ix1 i)
      = ∑ k : Fin 128, (agg x e w b i k - mean x e w b i) * (agg x e w b i k - mean x e w b i) := by
  rw [val_main_v55_apply, val_main_cst_11_apply, zero32, zero_add]
  refine Finset.sum_congr rfl fun k _ => ?_
  have hi : idx_main_v55 (ix1 i) k = ix2 i k :=
    funext fun a => Fin.ext (by match a with | ⟨0, _⟩ => rfl | ⟨1, _⟩ => rfl)
  rw [hi, val_main_v54_apply, v53_at]
  rfl

/-- The inverse standard deviation, as a column. -/
theorem v63_at (i : Fin 100000) :
    val_main_v63 (F := Ideal) x e w b (ix2 i (0 : Fin 1)) = Ideal.rsqrt (var x e w b i + epsLn) := by
  rw [val_main_v63_apply, val_main_v62_apply, val_main_v58_apply, val_main_v56_apply, val_main_v57_apply,
    val_main_cst_12_apply, val_main_v61_apply, val_main_cst_13_apply]
  have hi : idx_main_v56 (ix2 i (0 : Fin 1)) = ix1 i :=
    funext fun a => Fin.ext (by match a with | ⟨0, _⟩ => rfl)
  rw [hi, v55_at]
  rfl

/-- The normalised value. -/
theorem v65_at (i : Fin 100000) (c : Fin 128) :
    val_main_v65 (F := Ideal) x e w b (ix2 i c)
      = (agg x e w b i c - mean x e w b i) * Ideal.rsqrt (var x e w b i + epsLn) := by
  rw [val_main_v65_apply, val_main_v64_apply, v60_at]
  have hi : idx_main_v64 (ix2 i c) = ix2 i (0 : Fin 1) :=
    funext fun a => Fin.ext (by match a with | ⟨0, _⟩ => rfl | ⟨1, _⟩ => rfl)
  rw [hi, v63_at]
  rfl

/-- The scale broadcast along the nodes. -/
theorem v67_at (i : Fin 100000) (c : Fin 128) : val_main_v67 (F := Ideal) g (ix2 i c) = g (ix1 c) := by
  rw [val_main_v67_apply, val_main_v66_apply]
  exact congrArg g (funext fun a => Fin.ext (by match a with | ⟨0, _⟩ => rfl))

/-- The shift broadcast along the nodes. -/
theorem v70_at (i : Fin 100000) (c : Fin 128) : val_main_v70 (F := Ideal) be (ix2 i c) = be (ix1 c) := by
  rw [val_main_v70_apply, val_main_v69_apply]
  exact congrArg be (funext fun a => Fin.ext (by match a with | ⟨0, _⟩ => rfl))

/-- The scaled and shifted value, before the clip. -/
theorem v71_at (i : Fin 100000) (c : Fin 128) :
    val_main_v71 (F := Ideal) x e w b g be (ix2 i c)
      = ((agg x e w b i c - mean x e w b i) * Ideal.rsqrt (var x e w b i + epsLn)) * g (ix1 c) + be (ix1 c) := by
  rw [val_main_v71_apply, val_main_v68_apply, v65_at, v67_at, v70_at]
  rfl

end LN

/-- The reference's result at node `i`, feature `c`. -/
theorem ref_apply (x : FVec Ideal S100000x128 .f32) (e : IVec S2x1600000 32) (w : FVec Ideal S128x128 .f32)
    (b g be : FVec Ideal S128 .f32) (i : Fin 100000) (c : Fin 128) :
    val_main_v72 (F := Ideal) x e w b g be (ix2 i c)
      = layerNormRelu (aggR (fun n k => x (ix2 n k)) (fun k q => w (ix2 k q))
            (fun n => val_main_v15 (F := Ideal) e (ix1 n)) (fun q => b (ix1 q))
            (fun j => val_main_v20 (F := Ideal) e (ix1 j)) (fun j => val_main_v6 (F := Ideal) e (ix1 j))
            (fun j => val_main_v27 (F := Ideal) e (ix1 j)))
          (fun q => g (ix1 q)) (fun q => be (ix1 q)) i c := by
  rw [val_main_v72_apply, v71_at, val_main_call1_v0_apply, val_main_call1_cst_apply, zero32]
  rfl

end Cert.RefValue

end
-- ==== Proof.RefFacts.lean ====
/-
  A FACT ABOUT THE REFERENCE'S EDGE ENTRIES.

  The target word of edge entry `j` is made non-negative (100000 is added to a negative word) before it is used as
  a gather index, and a gather clamps its index into the node range. For an entry that the scatter adds into node
  `i` — its target word, read as a signed integer, is `i` — neither step changes anything: the word is not
  negative, and `i` is already in the node range. So the clamped target row of such an entry is `i`.
-/
import proofs.«176098_j48661979464167_2_alg».proof.Proof.RefReadP
import proofs.«176098_j48661979464167_2_alg».proof.Proof.GcnSpec

noncomputable section

namespace Cert.RefFacts

open Idealize.ShloMosaic Idealize.ShloMosaic.ValueIdx Cert.ReferenceIdeal Cert.ReferenceIdeal.ReadP Cert.GcnSpec

/-- A word whose signed value is a natural number is not below zero, so the normalised target word is the word. -/
theorem v27_eq_v6 (e : IVec S2x1600000 32) (j : Fin 1700000) (n : Nat)
    (h : (val_main_v6 (F := Ideal) e (ix1 j)).toInt = (n : ℤ)) :
    val_main_v27 (F := Ideal) e (ix1 j) = val_main_v6 (F := Ideal) e (ix1 j) := by
  have hn : (val_main_v6 (F := Ideal) e (ix1 j)).slt 0#32 = false := by
    unfold BitVec.slt
    rw [h, BitVec.toInt_zero]
    exact decide_eq_false (by omega)
  rw [val_main_v27_apply, val_main_v24_apply, val_main_v23_apply, val_main_c_4_apply]
  show Scalar.select (BitVec.ofBool ((val_main_v6 (F := Ideal) e (ix1 j)).slt 0#32)) _ _ = _
  rw [hn]
  exact select_zero _ _

/-- The clamped target row of an entry that lands on node `i` is `i`. -/
theorem tgt_clamp (e : IVec S2x1600000 32) (j : Fin 1700000) (i : Fin 100000)
    (h : (val_main_v6 (F := Ideal) e (ix1 j)).toInt = (i.val : ℤ)) :
    clampN (val_main_v27 (F := Ideal) e (ix1 j)) = i := by
  rw [v27_eq_v6 e j i.val h]
  refine Fin.ext ?_
  show min (val_main_v6 (F := Ideal) e (ix1 j)).toInt.toNat (100000 - 1) = i.val
  rw [h, Int.toNat_natCast]
  have hi := i.isLt
  omega

end Cert.RefFacts

end
-- ==== Proof.LibReal.lean ====
/-
  Real numbers among the extended reals, and the operations that keep them real.
  Part 1, scalars. An extended real is a real number, +∞ or −∞. Over the reals the ring laws hold; at the infinities distributivity
  and cancellation fail. So an identity that needs those laws is proved for real values, and a computation is shown to
  stay among the reals: sums, differences, products, maxima and finite sums of reals are real; the logistic function
  1/(1 + e^(-x)) is real everywhere (it is 0 at −∞ and 1 at +∞); a quotient by a non-zero real is real; the inverse
  square root of a positive real is real.
  Part 2, arrays at the ideal values. An array is real when every entry is. The elementwise sum, difference, product
  and maximum of real arrays are real; so is any re-indexing of one (a broadcast, a reshape, a slice, a gather: each
  entry of the result is an entry of the operand); the logistic function of any array; the host's product of two real
  arrays (each entry a finite sum of products); its sum-reduction of a real array from a real initial value (the initial
  value plus a finite sum of entries); its scatter-add of real updates into a real operand (the operand's entry plus a
  finite sum of update entries); the quotient by an array of one non-zero real; the inverse square root of an array of
  positive reals; a selection between two real arrays. An array
  every entry of which passes jnp's `isfinite` test (|x| < +∞) is real.
-/
import Idealize.ShloMosaic.PureOps.Ideal
import Idealize.ShloMosaic.PureOps.Ideal.Laws
import Idealize.ShloMosaic.Lib.ValueIdx
import Mathlib.Data.EReal.Basic

noncomputable section

namespace Cert.LibReal

open Idealize.ShloMosaic

/-- `x` is a real number: neither infinity. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

/-- A sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- A difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negative of a real is real. -/
theorem IsReal.neg {x : EReal} (hx : IsReal x) : IsReal (-x) := by
  obtain ⟨a, rfl⟩ := hx; exact ⟨-a, (EReal.coe_neg a).symm⟩

/-- The larger of two reals is real. -/
theorem IsReal.max {x y : EReal} (hx : IsReal x) (hy : IsReal y) : IsReal (max x y) := by
  obtain ⟨a, rfl⟩ := hx; obtain ⟨b, rfl⟩ := hy
  exact ⟨Max.max a b, (EReal.coe_strictMono.monotone.map_max).symm⟩

/-- A finite sum of reals is real. -/
theorem IsReal.sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- The logistic function's value is a real number at every extended real. -/
theorem isReal_logistic (x : EReal) : IsReal (Ideal.logistic x) := by
  induction x using EReal.rec with
  | bot => rw [Ideal.logistic_bot]; exact isReal_zero
  | coe r => rw [Ideal.logistic_coe]; exact isReal_coe _
  | top => rw [Ideal.logistic_top]; exact isReal_one

/-- A real divided by a non-zero real is real. -/
theorem IsReal.div_coe {x : EReal} (hx : IsReal x) {y : ℝ} (hy : y ≠ 0) : IsReal (Ideal.div x (y : EReal)) := by
  rw [Ideal.div_coe hy]; exact hx.mul (isReal_coe _)

/-- The inverse square root of a positive real is real. -/
theorem isReal_rsqrt_pos {r : ℝ} (hr : 0 < r) : IsReal (Ideal.rsqrt (r : EReal)) := by
  rw [Ideal.rsqrt_coe, if_neg (not_lt.mpr hr.le), if_neg hr.ne']; exact isReal_coe _

/-- The scale-and-shift form of a normalisation is the centred form, over the reals:
    (g·r)·x + (b − m·(g·r)) = (g·(x − m))·r + b, by distributivity. -/
theorem norm_forms (g x m r b : ℝ) :
    ((g : EReal) * r) * x + ((b : EReal) - m * ((g : EReal) * r)) = ((g : EReal) * ((x : EReal) - m)) * r + b := by
  have h : (g * r) * x + (b - m * (g * r)) = (g * (x - m)) * r + b := by ring
  exact_mod_cast congrArg (fun t : ℝ => (t : EReal)) h

/-- The same for extended reals known to be real. -/
theorem norm_forms_of_isReal {g x m r b : EReal} (hg : IsReal g) (hx : IsReal x) (hm : IsReal m) (hr : IsReal r)
    (hb : IsReal b) : (g * r) * x + (b - m * (g * r)) = (g * (x - m)) * r + b := by
  obtain ⟨g, rfl⟩ := hg; obtain ⟨x, rfl⟩ := hx; obtain ⟨m, rfl⟩ := hm; obtain ⟨r, rfl⟩ := hr; obtain ⟨b, rfl⟩ := hb
  exact norm_forms g x m r b

/-! ## Non-negative and positive reals -/

/-- `x` is a non-negative real number. -/
def IsNonneg (x : EReal) : Prop := ∃ r : ℝ, 0 ≤ r ∧ x = (r : EReal)

/-- `x` is a positive real number. -/
def IsPos (x : EReal) : Prop := ∃ r : ℝ, 0 < r ∧ x = (r : EReal)

theorem IsNonneg.isReal {x : EReal} (h : IsNonneg x) : IsReal x := by obtain ⟨r, -, e⟩ := h; exact ⟨r, e⟩
theorem IsPos.isReal {x : EReal} (h : IsPos x) : IsReal x := by obtain ⟨r, -, e⟩ := h; exact ⟨r, e⟩
theorem isNonneg_zero : IsNonneg 0 := ⟨0, le_refl _, rfl⟩

/-- The square of a real is non-negative. -/
theorem IsReal.mul_self_nonneg {x : EReal} (hx : IsReal x) : IsNonneg (x * x) := by
  obtain ⟨a, rfl⟩ := hx; exact ⟨a * a, _root_.mul_self_nonneg a, (EReal.coe_mul a a).symm⟩

/-- A sum of two non-negative reals is non-negative. -/
theorem IsNonneg.add {x y : EReal} (hx : IsNonneg x) (hy : IsNonneg y) : IsNonneg (x + y) := by
  obtain ⟨a, ha, rfl⟩ := hx; obtain ⟨b, hb, rfl⟩ := hy; exact ⟨a + b, add_nonneg ha hb, (EReal.coe_add a b).symm⟩

/-- A finite sum of non-negative reals is non-negative. -/
theorem IsNonneg.sum {ι : Type} (s : Finset ι) (f : ι → EReal) (h : ∀ i ∈ s, IsNonneg (f i)) : IsNonneg (∑ i ∈ s, f i) := by
  classical
  induction s using Finset.induction_on with
  | empty => rw [Finset.sum_empty]; exact isNonneg_zero
  | insert a s ha ih =>
    rw [Finset.sum_insert ha]
    exact (h a (Finset.mem_insert_self a s)).add (ih fun i hi => h i (Finset.mem_insert_of_mem hi))

/-- A non-negative real divided by a positive real is non-negative. -/
theorem IsNonneg.div_coe {x : EReal} (hx : IsNonneg x) {y : ℝ} (hy : 0 < y) : IsNonneg (Ideal.div x (y : EReal)) := by
  obtain ⟨a, ha, rfl⟩ := hx
  rw [Ideal.div_coe hy.ne']
  exact ⟨a * (1 / y), mul_nonneg ha (one_div_pos.mpr hy).le, (EReal.coe_mul a (1 / y)).symm⟩

/-- A non-negative real plus a positive real is positive. -/
theorem IsNonneg.add_pos {x y : EReal} (hx : IsNonneg x) (hy : IsPos y) : IsPos (x + y) := by
  obtain ⟨a, ha, rfl⟩ := hx; obtain ⟨b, hb, rfl⟩ := hy
  exact ⟨a + b, add_pos_of_nonneg_of_pos ha hb, (EReal.coe_add a b).symm⟩

/-- The inverse square root of a positive real is a positive real. -/
theorem IsPos.rsqrt {x : EReal} (hx : IsPos x) : IsPos (Ideal.rsqrt x) := by
  obtain ⟨r, hr, rfl⟩ := hx
  rw [Ideal.rsqrt_coe, if_neg (not_lt.mpr hr.le), if_neg hr.ne']
  exact ⟨(Real.sqrt r)⁻¹, inv_pos.mpr (Real.sqrt_pos.mpr hr), rfl⟩

/-! ## The host's finiteness test -/

/-- jnp's `isfinite` on one value, `|x| < +∞` against the word 0x7F800000: where it holds the value is a real. -/
theorem isReal_of_abs_lt_inf (x : Ideal .f32)
    (h : FloatOps.cmpf .olt (FloatOps.hostAbsf x) (FloatOps.ofBits (F := Ideal) .f32 0x7F800000#32) = 1#1) : IsReal x := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  induction x using EReal.rec with
  | bot => simp at h'
  | coe r => exact isReal_coe r
  | top => simp at h'

/-! ## Arrays -/

section Arrays
variable {s t : Shape} {φ : FTy}

/-- Every entry of the array is a real number. -/
def RealVec (v : FVec Ideal s φ) : Prop := ∀ i, IsReal (v i)

theorem RealVec.addf {x y : FVec Ideal s φ} (hx : RealVec x) (hy : RealVec y) : RealVec (addf x y) :=
  fun i => (hx i).add (hy i)
theorem RealVec.subf {x y : FVec Ideal s φ} (hx : RealVec x) (hy : RealVec y) : RealVec (subf x y) :=
  fun i => (hx i).sub (hy i)
theorem RealVec.mulf {x y : FVec Ideal s φ} (hx : RealVec x) (hy : RealVec y) : RealVec (mulf x y) :=
  fun i => (hx i).mul (hy i)
theorem RealVec.maximumf {x y : FVec Ideal s φ} (hx : RealVec x) (hy : RealVec y) : RealVec (maximumf x y) :=
  fun i => (hx i).max (hy i)

/-- A constant array of a bit pattern that denotes a real. -/
theorem realVec_constant (b : BitVec φ.bits) (hb : IsReal (Ideal.ofBits φ b)) : RealVec (constant (F := Ideal) s φ b) :=
  fun _ => hb

/-- Any re-indexing of a real array is real: each entry of the result is an entry of the operand. -/
theorem RealVec.reindex {x : FVec Ideal s φ} (hx : RealVec x) (g : t.Idx → s.Idx) : RealVec (fun j => x (g j) : FVec Ideal t φ) :=
  fun j => hx (g j)

theorem RealVec.broadcastInDim {x : FVec Ideal s φ} (hx : RealVec x) (dims : Fin s.rank → Fin t.rank)
    (h : s.BroadcastsInDim t dims) : RealVec (broadcastInDim t dims h x : FVec Ideal t φ) :=
  fun j => by unfold Idealize.ShloMosaic.broadcastInDim; exact hx _

theorem RealVec.shapeCast {x : FVec Ideal s φ} (hx : RealVec x) (h : s.ShapeCasts t) : RealVec (shapeCast t x h : FVec Ideal t φ) :=
  fun j => by unfold Idealize.ShloMosaic.shapeCast; exact hx _

theorem RealVec.extractStridedSlice {x : FVec Ideal s φ} (hx : RealVec x) (off : Fin s.rank → Nat) (h : s.Slices off t) :
    RealVec (extractStridedSlice t off x h : FVec Ideal t φ) :=
  fun j => by unfold Idealize.ShloMosaic.extractStridedSlice; exact hx _

theorem RealVec.gather {si : Shape} {w : Nat} {x : FVec Ideal s φ} (hx : RealVec x) (d : GatherDims s si t) (idx : IVec si w) :
    RealVec (Host.gather d x idx : FVec Ideal t φ) :=
  fun j => hx _

/-- The logistic function of any array is a real array. -/
theorem realVec_logistic (x : FVec Ideal s φ) : RealVec (logistic x) :=
  fun i => isReal_logistic (x i)

/-- The host's product of two real arrays is real. -/
theorem RealVec.dotGeneral {sl sr so : Shape} {φ₁ φ₂ : FTy} (d : DotDims sl sr so) (prec : Option ContractPrecision)
    {lhs : FVec Ideal sl φ₁} {rhs : FVec Ideal sr φ₂} (hl : RealVec lhs) (hr : RealVec rhs) :
    RealVec (Host.dotGeneral d prec lhs rhs) := fun j => by
  simp only [Host.dotGeneral]
  rw [Ideal.dotGeneral_apply]
  exact IsReal.sum _ _ fun k _ => (hl _).mul (hr _)

/-- The host's sum-reduction of a real array from a real initial value is real. -/
theorem RealVec.reduceAdd {axes : List (Fin s.rank)} {u : Shape} {x : FVec Ideal s φ} (hx : RealVec x)
    (init : u.Idx → Ideal φ) (hi : ∀ k, IsReal (init k)) (h : s.ReducesTo axes t) (hu : 0 < u.numel) :
    RealVec (Host.reduceAdd x init h hu : FVec Ideal t φ) := fun j => by
  show IsReal (Ideal.hostReduceAdd h x (init (Shape.Idx.first hu)) j)
  unfold Ideal.hostReduceAdd
  exact (hi _).add (IsReal.sum _ _ fun i _ => hx i)

/-- The host's scatter-add of real updates into a real operand is real. -/
theorem RealVec.scatterAdd {si su : Shape} {w : Nat} (d : ScatterDims s si su) {x : FVec Ideal s φ} (hx : RealVec x)
    (idx : IVec si w) {upd : FVec Ideal su φ} (hu : RealVec upd) : RealVec (Host.scatterAdd d x idx upd) := fun i => by
  show IsReal (Ideal.hostScatterAdd d x idx upd i)
  unfold Ideal.hostScatterAdd
  exact (hx i).add (IsReal.sum _ _ fun j _ => hu j)

/-- A real array divided, entry by entry, by an array of one non-zero real is real. -/
theorem RealVec.divf_const {x y : FVec Ideal s φ} (hx : RealVec x) {c : ℝ} (hc : c ≠ 0) (hy : ∀ i, y i = (c : EReal)) :
    RealVec (Host.divf x y) := fun i => by
  show IsReal (Ideal.div (x i) (y i))
  rw [hy i]; exact (hx i).div_coe hc

/-- The inverse square root of an array of positive reals is real. -/
theorem realVec_rsqrt_pos {x : FVec Ideal s φ} (hx : ∀ i, ∃ r : ℝ, 0 < r ∧ x i = (r : EReal)) : RealVec (Host.rsqrt x) := fun i => by
  obtain ⟨r, hr, e⟩ := hx i
  show IsReal (Ideal.rsqrt (x i))
  rw [e]; exact isReal_rsqrt_pos hr

/-- A selection between two real arrays is real. -/
theorem RealVec.select (c : IVec s 1) {a b : FVec Ideal s φ} (ha : RealVec a) (hb : RealVec b) :
    RealVec (select c a b : FVec Ideal s φ) := fun i => by
  show IsReal (Scalar.select (c i) (a i) (b i))
  unfold Scalar.select
  split
  · exact ha i
  · exact hb i

/-- An array every entry of which passes the host's finiteness test is real. -/
theorem realVec_of_finite_test (x : FVec Ideal s .f32)
    (h : ∀ i, FloatOps.cmpf .olt (FloatOps.hostAbsf (x i)) (FloatOps.ofBits (F := Ideal) .f32 0x7F800000#32) = 1#1) : RealVec x :=
  fun i => isReal_of_abs_lt_inf (x i) (h i)

end Arrays

end Cert.LibReal

end
-- ==== Proof.GcnAlgebra.lean ====
/-
  The two aggregation orders of the graph-convolution layer agree over the reals.

  The reference sums, over the entries landing on node i, the transformed source row scaled by both degree factors;
  the kernel sums the transformed pre-scaled source rows and scales the total by node i's own factor. For an entry
  that lands on i the target row is i, so its target factor is d i; then
    (∑_j [p j] ∑_k (x_jk · ds_j) · w_k) · di = ∑_j [p j] (∑_k x_jk · w_k) · (ds_j · dt_j)
  by distributivity and commutativity. These laws hold among real numbers, not at the infinities, so the identity is
  proved over ℝ and carried to the extended reals for values known to be real: a finite sum, a product and a
  conditional of coerced reals are the coercion of the real sum, product and conditional.
-/
import proofs.«176098_j48661979464167_2_alg».proof.Proof.GcnSpec
import proofs.«176098_j48661979464167_2_alg».proof.Proof.LibReal

noncomputable section

open scoped BigOperators

namespace Cert.GcnAlgebra

open Cert.LibReal

/-- A finite sum of coerced reals is the coercion of the real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- A conditional between a coerced real and zero is the coercion of the real conditional. -/
theorem coe_ite_zero (p : Prop) [Decidable p] (a : ℝ) :
    (if p then (a : EReal) else 0) = ((if p then a else 0 : ℝ) : EReal) := by
  split_ifs
  · rfl
  · exact EReal.coe_zero.symm

/-- The identity over the reals, for any finite sets of entries `ι` and features `κ`: scaling the conditional sum of
    pre-scaled transformed rows by `di` is the conditional sum of transformed rows scaled by both factors, when the
    second factor of every selected entry is `di`. -/
theorem agg_real {ι κ : Type*} [Fintype ι] [Fintype κ] (p : ι → Prop) [DecidablePred p]
    (X : ι → κ → ℝ) (W : κ → ℝ) (Ds Dt : ι → ℝ) (di : ℝ) (h : ∀ j, p j → Dt j = di) :
    (∑ j, if p j then ∑ k, (X j k * Ds j) * W k else 0) * di
      = ∑ j, if p j then (∑ k, X j k * W k) * (Ds j * Dt j) else 0 := by
  rw [Finset.sum_mul]
  refine Finset.sum_congr rfl fun j _ => ?_
  by_cases hp : p j
  · rw [if_pos hp, if_pos hp, h j hp, Finset.sum_mul, Finset.sum_mul]
    refine Finset.sum_congr rfl fun k _ => ?_
    ring
  · rw [if_neg hp, if_neg hp, zero_mul]

/-- The same identity among extended reals that are real numbers. -/
theorem agg_ereal {ι κ : Type*} [Fintype ι] [Fintype κ] (p : ι → Prop) [DecidablePred p]
    (X : ι → κ → EReal) (W : κ → EReal) (Ds Dt : ι → EReal) (di : EReal)
    (hX : ∀ j k, IsReal (X j k)) (hW : ∀ k, IsReal (W k)) (hDs : ∀ j, IsReal (Ds j)) (hDt : ∀ j, IsReal (Dt j))
    (hdi : IsReal di) (h : ∀ j, p j → Dt j = di) :
    (∑ j, if p j then ∑ k, (X j k * Ds j) * W k else 0) * di
      = ∑ j, if p j then (∑ k, X j k * W k) * (Ds j * Dt j) else 0 := by
  choose Xr hXr using hX
  choose Wr hWr using hW
  choose Dsr hDsr using hDs
  choose Dtr hDtr using hDt
  obtain ⟨dir, rfl⟩ := hdi
  obtain rfl : X = fun j k => ((Xr j k : ℝ) : EReal) := funext fun j => funext fun k => hXr j k
  obtain rfl : W = fun k => ((Wr k : ℝ) : EReal) := funext hWr
  obtain rfl : Ds = fun j => ((Dsr j : ℝ) : EReal) := funext hDsr
  obtain rfl : Dt = fun j => ((Dtr j : ℝ) : EReal) := funext hDtr
  have hr : ∀ j, p j → Dtr j = dir := fun j hp => EReal.coe_eq_coe_iff.1 (h j hp)
  have eL : ∀ j, (if p j then ∑ k, (((Xr j k : ℝ) : EReal) * ((Dsr j : ℝ) : EReal)) * ((Wr k : ℝ) : EReal) else 0)
      = ((if p j then ∑ k, (Xr j k * Dsr j) * Wr k else 0 : ℝ) : EReal) := by
    intro j
    rw [← coe_ite_zero, ← coe_sum]
    simp only [EReal.coe_mul]
  have eR : ∀ j, (if p j then (∑ k, ((Xr j k : ℝ) : EReal) * ((Wr k : ℝ) : EReal))
        * (((Dsr j : ℝ) : EReal) * ((Dtr j : ℝ) : EReal)) else 0)
      = ((if p j then (∑ k, Xr j k * Wr k) * (Dsr j * Dtr j) else 0 : ℝ) : EReal) := by
    intro j
    rw [← coe_ite_zero, EReal.coe_mul, EReal.coe_mul, ← coe_sum]
    simp only [EReal.coe_mul]
  show (∑ j, if p j then ∑ k, (((Xr j k : ℝ) : EReal) * ((Dsr j : ℝ) : EReal)) * ((Wr k : ℝ) : EReal) else 0)
        * ((dir : ℝ) : EReal)
      = ∑ j, if p j then (∑ k, ((Xr j k : ℝ) : EReal) * ((Wr k : ℝ) : EReal))
        * (((Dsr j : ℝ) : EReal) * ((Dtr j : ℝ) : EReal)) else 0
  rw [Finset.sum_congr rfl (fun j _ => eL j), Finset.sum_congr rfl (fun j _ => eR j), coe_sum, coe_sum,
    ← EReal.coe_mul, agg_real p Xr Wr Dsr Dtr dir hr]

/-- The kernel's aggregate is the reference's, for real features, weights and degree factors, when the clamped target
    row of every entry that lands on a node is that node. -/
theorem aggK_eq_aggR (x : Fin 100000 → Fin 128 → EReal) (w : Fin 128 → Fin 128 → EReal) (d : Fin 100000 → EReal)
    (b : Fin 128 → EReal) (nr cI nc : Fin 1700000 → BitVec 32)
    (hx : ∀ n k, Cert.LibReal.IsReal (x n k)) (hw : ∀ k c, Cert.LibReal.IsReal (w k c))
    (hd : ∀ n, Cert.LibReal.IsReal (d n))
    (hc : ∀ (j : Fin 1700000) (i : Fin 100000), (cI j).toInt = (i.val : ℤ) → Cert.GcnSpec.clampN (nc j) = i) :
    Cert.GcnSpec.aggK x w d b nr cI = Cert.GcnSpec.aggR x w d b nr cI nc := by
  funext i c
  unfold Cert.GcnSpec.aggK Cert.GcnSpec.aggR
  exact congrArg (fun t => t + b c)
    (agg_ereal (fun j : Fin 1700000 => (cI j).toInt = (i.val : ℤ))
      (fun j k => x (Cert.GcnSpec.clampN (nr j)) k) (fun k => w k c)
      (fun j => d (Cert.GcnSpec.clampN (nr j))) (fun j => d (Cert.GcnSpec.clampN (nc j))) (d i)
      (fun j k => hx _ k) (fun k => hw k c) (fun j => hd _) (fun j => hd _) (hd i)
      (fun j hp => by rw [hc j i hp]))

end Cert.GcnAlgebra

end
-- ==== Proof.LibScatterCat.lean ====
/-
  THE ACCUMULATING SCATTER OF A FLAT ARRAY, READ AT AN INDEX, AND OVER A CONCATENATION.

  For a flat operand `x : [N]`, scatter indices `idx : [M, 1]` (one scalar index per update) and updates
  `upd : [M]`, the accumulating scatter (`zeros.at[idx].add(upd)`) at the ideal instance is, at element `i`,
  `x i` plus the sum of the updates `upd j` whose index `idx[j, 0]`, read as a signed integer, is `i`
  (`scatterAdd_apply`); an update whose index is outside `[0, N)` contributes nothing. Since that is a sum over
  the update list, scattering a concatenation of two update lists at the concatenation of their index lists is
  scattering the first list and then the second into the result (`scatterAdd_append`): sums in the extended
  reals reassociate freely.
-/
import Idealize.ShloMosaic.Lib.ValueIdx

noncomputable section

open scoped BigOperators

namespace Cert.Lib.ScatterCat

open Idealize.ShloMosaic Idealize.ShloMosaic.ValueIdx

/-- The dimension numbers of `zeros.at[idx].add(upd)` for a flat operand `[N]`, scatter indices `[M, 1]` and
    updates `[M]`: no update window axes, the operand's one axis inserted, each index vector one scalar for it. -/
abbrev addDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- The window of update `j` starts, on the operand's one axis, at its scatter index `idx[j, 0]` read signed. -/
theorem start_eq {N M w : Nat} (wf : ScatterDims.WF ⟨1, ![N]⟩ ⟨2, ![M, 1]⟩ ⟨1, ![M]⟩ [] [0] [0] 1)
    (idx : IVec ⟨2, ![M, 1]⟩ w) (j : Fin M) :
    (addDims N M wf).start (ix1 j) idx 0 = (idx (ix2 j (0 : Fin 1))).toInt := by
  unfold ScatterDims.start
  rw [dif_pos (show (0 : Fin 1) ∈ (addDims N M wf).scatterDimsToOperandDims from List.mem_singleton.mpr rfl)]
  have hsi : (addDims N M wf).siIdx (ix1 j) ⟨List.idxOf (0 : Fin 1) (addDims N M wf).scatterDimsToOperandDims,
      List.idxOf_lt_length_iff.2 (List.mem_singleton.mpr rfl)⟩ = ix2 j (0 : Fin 1) := by
    funext b; refine Fin.ext ?_
    match b with
    | ⟨0, _⟩ => rfl
    | ⟨1, _⟩ => rfl
  rw [hsi]

/-- The operand's one axis is an inserted window axis: the window coordinate on it is `0`. -/
theorem window_eq {N M : Nat} (wf : ScatterDims.WF ⟨1, ![N]⟩ ⟨2, ![M, 1]⟩ ⟨1, ![M]⟩ [] [0] [0] 1) (j : Fin M) :
    (addDims N M wf).window (ix1 j) 0 = 0 := by
  unfold ScatterDims.window
  rw [dif_neg]
  simp [ScatterDims.sKept, Shape.kept]

/-- On the operand's one axis, start plus window coordinate of update `j` is its scatter index read signed. -/
theorem start_add_window {N M w : Nat} (wf : ScatterDims.WF ⟨1, ![N]⟩ ⟨2, ![M, 1]⟩ ⟨1, ![M]⟩ [] [0] [0] 1)
    (idx : IVec ⟨2, ![M, 1]⟩ w) (j : Fin M) (a : Fin 1) :
    (addDims N M wf).start (ix1 j) idx a + ((addDims N M wf).window (ix1 j) a : ℤ)
      = (idx (ix2 j (0 : Fin 1))).toInt := by
  obtain rfl : a = 0 := Subsingleton.elim _ _
  rw [start_eq, window_eq]; simp

/-- Update `j` lands on element `i` exactly when its scatter index, read signed, is `i`. -/
theorem resultIdx?_eq_some_iff {N M w : Nat} (wf : ScatterDims.WF ⟨1, ![N]⟩ ⟨2, ![M, 1]⟩ ⟨1, ![M]⟩ [] [0] [0] 1)
    (idx : IVec ⟨2, ![M, 1]⟩ w) (j : Fin M) (i : Fin N) :
    (addDims N M wf).resultIdx? (ix1 j) idx = some (ix1 i) ↔ (idx (ix2 j (0 : Fin 1))).toInt = (i.val : ℤ) := by
  unfold ScatterDims.resultIdx?
  constructor
  · intro h
    split at h
    · rename_i hall
      have h0 := congrArg Fin.val (congrFun (Option.some.inj h) (0 : Fin 1))
      have hb := hall (0 : Fin 1)
      rw [start_add_window] at hb
      change ((addDims N M wf).start (ix1 j) idx 0 + ((addDims N M wf).window (ix1 j) 0 : ℤ)).toNat = i.val at h0
      rw [start_add_window] at h0
      omega
    · exact absurd h (by simp)
  · intro hz
    have hall : ∀ a : Fin 1, 0 ≤ (addDims N M wf).start (ix1 j) idx a + ((addDims N M wf).window (ix1 j) a : ℤ)
        ∧ (addDims N M wf).start (ix1 j) idx a + ((addDims N M wf).window (ix1 j) a : ℤ)
            < ((⟨1, ![N]⟩ : Shape).size a : ℤ) := by
      intro a
      rw [start_add_window, hz]
      obtain rfl : a = 0 := Subsingleton.elim _ _
      have hi : (i.val : ℤ) < (N : ℤ) := by exact_mod_cast i.isLt
      exact ⟨by omega, hi⟩
    rw [dif_pos hall]
    congr 1
    funext a
    obtain rfl : a = 0 := Subsingleton.elim _ _
    refine Fin.ext ?_
    change ((addDims N M wf).start (ix1 j) idx 0 + ((addDims N M wf).window (ix1 j) 0 : ℤ)).toNat = i.val
    rw [start_add_window, hz]
    omega

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- The scatter read at element `i`: the operand's element plus the updates whose scatter index is `i`. -/
theorem scatterAdd_apply {φ : FTy} {N M w : Nat} (wf : ScatterDims.WF ⟨1, ![N]⟩ ⟨2, ![M, 1]⟩ ⟨1, ![M]⟩ [] [0] [0] 1)
    (x : FVec Ideal ⟨1, ![N]⟩ φ) (idx : IVec ⟨2, ![M, 1]⟩ w) (upd : FVec Ideal ⟨1, ![M]⟩ φ) (i : Fin N) :
    Host.scatterAdd (F := Ideal) (addDims N M wf) x idx upd (ix1 i)
      = x (ix1 i) + ∑ j : Fin M, if (idx (ix2 j (0 : Fin 1))).toInt = (i.val : ℤ) then upd (ix1 j) else 0 := by
  show Ideal.hostScatterAdd (addDims N M wf) x idx upd (ix1 i) = _
  unfold Ideal.hostScatterAdd
  congr 1
  rw [Finset.sum_filter, sum_idx1]
  refine Finset.sum_congr rfl fun j _ => ?_
  by_cases h : (idx (ix2 j (0 : Fin 1))).toInt = (i.val : ℤ)
  · rw [if_pos h, if_pos ((resultIdx?_eq_some_iff wf idx j i).2 h)]
  · rw [if_neg h, if_neg (fun h' => h ((resultIdx?_eq_some_iff wf idx j i).1 h'))]

/-- Scattering the concatenation of two update lists at the concatenation of their index lists is scattering the
    first list, then the second into the result: at each element both are the operand's element plus the updates of
    both lists that land on it. -/
theorem scatterAdd_append {φ : FTy} {N M M2 w : Nat} (hM2 : M2 = M + M)
    (wf : ScatterDims.WF ⟨1, ![N]⟩ ⟨2, ![M, 1]⟩ ⟨1, ![M]⟩ [] [0] [0] 1)
    (wf2 : ScatterDims.WF ⟨1, ![N]⟩ ⟨2, ![M2, 1]⟩ ⟨1, ![M2]⟩ [] [0] [0] 1)
    (x : FVec Ideal ⟨1, ![N]⟩ φ)
    (ia ib : IVec ⟨2, ![M, 1]⟩ w) (iab : IVec ⟨2, ![M2, 1]⟩ w)
    (ua ub : FVec Ideal ⟨1, ![M]⟩ φ) (uab : FVec Ideal ⟨1, ![M2]⟩ φ)
    (hia : ∀ j : Fin M, iab (ix2 (⟨j.val, by omega⟩ : Fin M2) (0 : Fin 1)) = ia (ix2 j 0))
    (hib : ∀ j : Fin M, iab (ix2 (⟨M + j.val, by omega⟩ : Fin M2) (0 : Fin 1)) = ib (ix2 j 0))
    (hua : ∀ j : Fin M, uab (ix1 (⟨j.val, by omega⟩ : Fin M2)) = ua (ix1 j))
    (hub : ∀ j : Fin M, uab (ix1 (⟨M + j.val, by omega⟩ : Fin M2)) = ub (ix1 j)) :
    Host.scatterAdd (F := Ideal) (addDims N M2 wf2) x iab uab
      = Host.scatterAdd (F := Ideal) (addDims N M wf) (Host.scatterAdd (F := Ideal) (addDims N M wf) x ia ua) ib ub := by
  subst hM2
  funext i
  obtain ⟨i0, rfl⟩ : ∃ i0, i = ix1 i0 := ⟨i 0, eq_ix1 i⟩
  rw [scatterAdd_apply, scatterAdd_apply, scatterAdd_apply, Fin.sum_univ_add, add_assoc]
  congr 2
  · refine Finset.sum_congr rfl fun j _ => ?_
    have e : (Fin.castAdd M j : Fin (M + M)) = ⟨j.val, by omega⟩ := Fin.ext rfl
    rw [e, hia, hua]
  · refine Finset.sum_congr rfl fun j _ => ?_
    have e : (Fin.natAdd M j : Fin (M + M)) = ⟨M + j.val, by omega⟩ := Fin.ext rfl
    rw [e, hib, hub]

end Cert.Lib.ScatterCat

end
-- ==== Proof.DinvReal.lean ====
/-
  The inverse square root of the in-degree, as the reference computes it, is a real number at every node.

  The reference builds the in-degree of node n by scattering, into an array of zeros, the constant 1 once per entry of
  the extended edge list at the entry's target: the degree is 0 plus a finite sum of terms each 1 or 0, a non-negative
  real, whichever terms are 1. It then selects, where the degree is greater than 0, the inverse square root of the
  degree (of a positive real: a real), and 0 elsewhere. Either way the value is real.
-/
import proofs.«176098_j48661979464167_2_alg».proof.Proof.RefReadP
import proofs.«176098_j48661979464167_2_alg».proof.Proof.LibReal
import proofs.«176098_j48661979464167_2_alg».proof.Proof.LibScatterCat

noncomputable section

open scoped BigOperators

namespace Cert.DinvReal

open Idealize.ShloMosaic Idealize.ShloMosaic.ValueIdx Cert.LibReal Cert.ReferenceIdeal Cert.ReferenceIdeal.ReadP

/-- The word 0x3F800000 denotes the real number 1. -/
theorem ofBits_one_f32 : Ideal.ofBits .f32 0x3F800000#32 = 1 := by
  simp [Ideal.ofBits, Ideal.ieee, -EReal.coe_mul]; norm_num

/-- The in-degree of node `n`: zero plus one per entry whose target is `n`; a non-negative real. -/
theorem deg_nonneg (e : IVec Cert.ReferenceIdeal.S2x1600000 32) (n : Fin 100000) :
    IsNonneg (val_main_v10 (F := Ideal) e (ix1 n)) := by
  have hs : val_main_v10 (F := Ideal) e (ix1 n)
      = val_main_v8 (F := Ideal) (ix1 n) + ∑ j : Fin 1700000,
          if ((val_main_v9 (F := Ideal) e) (ix2 j (0 : Fin 1))).toInt = (n.val : ℤ)
            then val_main_v7 (F := Ideal) (ix1 j) else 0 :=
    Cert.Lib.ScatterCat.scatterAdd_apply (φ := .f32) (w := 32)
      Cert.ReferenceIdeal.Gen.scatter_S100000_S1700000x1_S1700000_n_0_0_1_wf
      (val_main_v8 (F := Ideal)) (val_main_v9 (F := Ideal) e) (val_main_v7 (F := Ideal)) n
  rw [hs]
  refine IsNonneg.add ?_ (IsNonneg.sum _ _ fun j _ => ?_)
  · rw [val_main_v8_apply, val_main_cst_0_apply]
    show IsNonneg (Ideal.ofBits .f32 0x00000000#32)
    rw [Ideal.ofBits_zero_f32]; exact isNonneg_zero
  · split_ifs
    · rw [val_main_v7_apply, val_main_cst_apply]
      show IsNonneg (Ideal.ofBits .f32 0x3F800000#32)
      rw [ofBits_one_f32]; exact ⟨1, zero_le_one, EReal.coe_one.symm⟩
    · exact isNonneg_zero

/-- The selected value at node `n` — the inverse square root of a positive degree, or zero — is real. -/
theorem dinv_real (e : IVec Cert.ReferenceIdeal.S2x1600000 32) (n : Fin 100000) :
    Cert.LibReal.IsReal (Cert.ReferenceIdeal.ReadP.val_main_v15 (F := Ideal) e (ValueIdx.ix1 n)) := by
  obtain ⟨r, -, hr⟩ := deg_nonneg e n
  rw [val_main_v15_apply]
  by_cases hb : val_main_v12 (F := Ideal) e (ix1 n) = 1#1
  · -- the test "degree > 0" holds: the degree is a positive real
    have hb1 := hb
    rw [val_main_v12_apply] at hb1
    have hb' : Ideal.cmp .ogt (val_main_v10 (F := Ideal) e (ix1 n)) (val_main_v11 (F := Ideal) (ix1 n)) = 1#1 := hb1
    have h11 : val_main_v11 (F := Ideal) (ix1 n) = 0 := by
      rw [val_main_v11_apply, val_main_cst_1_apply]; exact Ideal.ofBits_zero_f32
    rw [hr, h11] at hb'
    have hpos : 0 < r := by
      by_contra hn
      have hn' : ¬ (0 : EReal) < (r : EReal) := fun h => hn (EReal.coe_pos.1 h)
      have h0 : Ideal.cmp .ogt (r : EReal) 0 = 0#1 := by simp [Ideal.cmp, hn, hn']
      rw [h0] at hb'
      exact absurd hb' (by decide)
    rw [hb, select_one, val_main_v13_apply, Ideal.hostUnary_rsqrt_def, hr]
    exact isReal_rsqrt_pos hpos
  · -- the test fails: the value is the constant 0
    rw [eq_zero_of_ne_one hb, select_zero, val_main_v14_apply, val_main_cst_2_apply]
    show IsReal (Ideal.ofBits .f32 0x00000000#32)
    rw [Ideal.ofBits_zero_f32]; exact isReal_zero

end Cert.DinvReal

end
-- ==== Proof.KAgg.lean ====
/-
  THE KERNEL PROGRAM'S HOST-SIDE AGGREGATION READ AT AN ENTRY.

  `aggArr H r cl` gathers the rows of a table `H` at the normalised source words `nrowsK r` (one row per edge entry)
  and scatter-adds them at the target words `cl` into a zero table. Read at node `i`, feature `q`:

  * the normalised source word of entry `j` is `r[j]`, with 100000 added when `r[j]` is negative as a signed word;
  * the gathered row of entry `j` is the row of `H` at that word clamped into the node range;
  * the scatter adds, into node `i`, the gathered rows of the entries whose target word, read as a signed integer,
    is `i`; the table it adds into is zero.
  When every row of `H` is the transformed pre-scaled row `∑ k, (x n k · d n) · w k q`, the entry is the sum the
  specification's kernel aggregate starts from.
-/
import proofs.«176098_j48661979464167_2_alg».proof.Proof.KHostDefs
import proofs.«176098_j48661979464167_2_alg».proof.Proof.GcnSpec
import proofs.«176098_j48661979464167_2_alg».proof.Proof.LibGatherCols
import proofs.«176098_j48661979464167_2_alg».proof.Proof.LibScatterRows
import Idealize.ShloMosaic.Lib.Pipeline.Value
import Idealize.ShloMosaic.Lib.ValueIdx
import Idealize.ShloMosaic.PureOps.Ideal.Laws

noncomputable section

open scoped BigOperators

namespace Cert.KernelIdeal.KAgg

open Cert.KernelIdeal Cert.KernelIdeal.KHost Cert.GcnSpec Idealize.ShloMosaic Idealize.ShloMosaic.ValueIdx

variable [Facts]
open Facts₀ Facts

/-- A scalar broadcast along the edge entries, read at any entry, is the scalar. -/
theorem bscal_at {α : Type} (y : S_.Idx → α) (p : S1700000.Idx) :
    broadcastInDim S1700000 ![] bcast_S_S1700000 y p = y (fun a => a.elim0) :=
  broadcastInDim_apply _ bcast_S_S1700000 y p (fun a => a.elim0) (fun a => a.elim0)

/-- A vector of words turned into a one-column table, read at row `j`, is the word at `j`. -/
theorem bcol_at {α : Type} (v : S1700000.Idx → α) (j : Fin 1700000) :
    broadcastInDim S1700000x1 ![0] bcast_S1700000_S1700000x1_0 v (ix2 j (0 : Fin 1)) = v (ix1 j) :=
  broadcastInDim_apply _ bcast_S1700000_S1700000x1_0 v (ix2 j (0 : Fin 1)) (ix1 j) (fun a => match a with
    | ⟨0, _⟩ => by show j.val = if (1700000 : Nat) = 1 then 0 else j.val; rw [if_neg (by decide)])

/-- The table the scatter accumulates into is zero. -/
theorem zero_tab_at (p : S100000x128.Idx) :
    broadcastInDim S100000x128 ![] bcast_S_S100000x128 (constant (F := Ideal) S_ .f32 0x00000000#32) p = 0 :=
  (broadcastInDim_apply _ bcast_S_S100000x128 (constant (F := Ideal) S_ .f32 0x00000000#32) p (fun a => a.elim0)
    (fun a => a.elim0)).trans Ideal.ofBits_zero_f32

/-- The normalised source word of entry `j`: 100000 added to a word that is negative as a signed integer. -/
theorem nrowsK_apply (r : IVec S1700000 32) (j : Fin 1700000) :
    nrowsK r (ix1 j)
      = Scalar.select (IntOp.cmpi .slt (r (ix1 j)) 0#32) (IntOp.addi (r (ix1 j)) 100000#32) (r (ix1 j)) := by
  unfold nrowsK
  show Scalar.select
      (IntOp.cmpi .slt (r (ix1 j)) (broadcastInDim S1700000 ![] bcast_S_S1700000 (constantI S_ 32 0#32) (ix1 j)))
      (IntOp.addi (r (ix1 j)) (broadcastInDim S1700000 ![] bcast_S_S1700000 (constantI S_ 32 100000#32) (ix1 j)))
      (r (ix1 j)) = _
  rw [bscal_at, bscal_at]
  rfl

/-- The same word, spelled with the signed comparison and the machine addition. -/
theorem nrowsK_apply' (r : IVec S1700000 32) (j : Fin 1700000) :
    nrowsK r (ix1 j) = if (r (ix1 j)).slt 0#32 then r (ix1 j) + 100000#32 else r (ix1 j) := by
  rw [nrowsK_apply]
  show Scalar.select (BitVec.ofBool ((r (ix1 j)).slt 0#32)) (r (ix1 j) + 100000#32) (r (ix1 j)) = _
  cases (r (ix1 j)).slt 0#32
  · exact select_zero _ _
  · exact select_one _ _

/-- The gathered row of entry `j`: the row of `H` at the clamped normalised source word. -/
theorem gathered_at (H : FVec Ideal S100000x128 .f32) (r : IVec S1700000 32) (j : Fin 1700000) (q : Fin 128) :
    Host.gather gather_S100000x128_S1700000x1_S1700000x128_1_0_n_n_0_1_1128 H
        (broadcastInDim S1700000x1 ![0] bcast_S1700000_S1700000x1_0 (nrowsK r)) (ix2 j q)
      = H (ix2 (clampN (nrowsK r (ix1 j))) q) := by
  have h := Cert.Lib.GatherCols.gather_rows_apply (N := 100000) (C := 128) (M := 1700000) (by omega)
    gather_S100000x128_S1700000x1_S1700000x128_1_0_n_n_0_1_1128_wf H
    (broadcastInDim S1700000x1 ![0] bcast_S1700000_S1700000x1_0 (nrowsK r)) j q
  refine h.trans ?_
  exact congrArg (fun v : BitVec 32 => H (ix2 (clampN v) q)) (bcol_at (nrowsK r) j)

/-- The aggregation at node `i`, feature `q`: the gathered rows of the entries whose target word is `i`. -/
theorem aggArr_rows (H : FVec Ideal S100000x128 .f32) (r cl : IVec S1700000 32) (i : Fin 100000) (q : Fin 128) :
    aggArr (F := Ideal) H r cl (ix2 i q)
      = ∑ j : Fin 1700000, if (cl (ix1 j)).toInt = (i.val : ℤ) then H (ix2 (clampN (nrowsK r (ix1 j))) q) else 0 := by
  have h := Cert.Lib.ScatterRows.scatterAdd_rows_apply (N := 100000) (C := 128) (M := 1700000)
    scatter_S100000x128_S1700000x1_S1700000x128_1_0_0_1_wf
    (broadcastInDim S100000x128 ![] bcast_S_S100000x128 (constant (F := Ideal) S_ .f32 0x00000000#32))
    (broadcastInDim S1700000x1 ![0] bcast_S1700000_S1700000x1_0 cl)
    (Host.gather gather_S100000x128_S1700000x1_S1700000x128_1_0_n_n_0_1_1128 H
      (broadcastInDim S1700000x1 ![0] bcast_S1700000_S1700000x1_0 (nrowsK r))) i q
  unfold aggArr
  refine h.trans ?_
  rw [zero_tab_at, zero_add]
  refine Finset.sum_congr rfl fun j _ => ?_
  rw [bcol_at cl j, gathered_at]

/-- The aggregation of a table whose rows are the transformed pre-scaled rows. -/
theorem aggArr_apply (H : FVec Ideal S100000x128 .f32) (r cl : IVec S1700000 32)
    (x : Fin 100000 → Fin 128 → EReal) (w : Fin 128 → Fin 128 → EReal) (d : Fin 100000 → EReal)
    (hH : ∀ (n : Fin 100000) (q : Fin 128), H (ix2 n q) = ∑ k : Fin 128, (x n k * d n) * w k q)
    (i : Fin 100000) (q : Fin 128) :
    aggArr (F := Ideal) H r cl (ix2 i q)
      = ∑ j : Fin 1700000, if (cl (ix1 j)).toInt = (i.val : ℤ) then
          (∑ k : Fin 128, (x (clampN (nrowsK r (ix1 j))) k * d (clampN (nrowsK r (ix1 j)))) * w k q) else 0 := by
  rw [aggArr_rows]
  refine Finset.sum_congr rfl fun j _ => ?_
  rw [hH]

end Cert.KernelIdeal.KAgg

end
-- ==== Proof.KFinal.lean ====
/-
  The kernel program's result at node i, feature q, in the specification's terms: the layer normalisation of the
  kernel's aggregate `aggK` — the rows of x scaled by the degree factors and multiplied by W, gathered at the source
  words and summed at the target words, the sum of node i scaled by its own degree factor, plus the bias.
-/
import proofs.«176098_j48661979464167_2_alg».proof.Proof.KHostDefs
import proofs.«176098_j48661979464167_2_alg».proof.Proof.KReg0
import proofs.«176098_j48661979464167_2_alg».proof.Proof.KReg1
import proofs.«176098_j48661979464167_2_alg».proof.Proof.KAgg
import proofs.«176098_j48661979464167_2_alg».proof.Proof.LibLayout
import Idealize.ShloMosaic.Lib.ValueLayout

noncomputable section

open scoped BigOperators

namespace Cert.KernelIdeal.KFinal

open Cert.KernelIdeal Cert.KernelIdeal.KHost Cert.KernelIdeal.KAgg Cert.GcnSpec Cert.KPay Cert.LibLayout
open Idealize.ShloMosaic Idealize.ShloMosaic.ValueIdx

variable [Facts]
open Facts₀ Facts

/-- The scaled product of x, the degree column and W at (n, q), with the column read from the degree vector. -/
theorem scaledProduct_apply (x : S100000x128.Idx → Elt Ideal .f32) (dv : S100000.Idx → Elt Ideal .f32)
    (w : S128x128.Idx → Elt Ideal .f32) (n : Fin 100000) (q : Fin 128) :
    KReg0.scaledProduct x (shapeCast S100000x1 dv shapeCasts_S100000_S100000x1) w (ix2 n q)
      = ∑ k : Fin 128, ((x (ix2 n k) : EReal) * (dv (ix1 n) : EReal)) * (w (ix2 k q) : EReal) := by
  unfold KReg0.scaledProduct
  refine Finset.sum_congr rfl fun k _ => ?_
  show ((x (ix2 n k) : EReal) * (shapeCast S100000x1 dv shapeCasts_S100000_S100000x1 (ix2 n (0 : Fin 1)) : EReal)) * (w (ix2 k q) : EReal) = _
  rw [shapeCast_a_a1_apply (a := 100000) dv shapeCasts_S100000_S100000x1 n 0]

/-- The normalised array at (i, q) is the normalisation of row i at feature q. -/
theorem normalised_apply (A : S100000x128.Idx → Elt Ideal .f32) (D : S100000x1.Idx → Elt Ideal .f32)
    (B G Be : S1x128.Idx → Elt Ideal .f32) (i : Fin 100000) (q : Fin 128) :
    KReg1.normalised A D B G Be (ix2 i q)
      = lnRow (fun k => (A (ix2 i k) : EReal) * (D (ix2 i (0 : Fin 1)) : EReal) + (B (ix2 (0 : Fin 1) k) : EReal))
          (fun k => (G (ix2 (0 : Fin 1) k) : EReal)) (fun k => (Be (ix2 (0 : Fin 1) k) : EReal)) q := rfl

/-- The result at (i, q). -/
theorem kernel_apply (x : S100000x128.Idx → Elt Ideal .f32) (e : IVec S2x1600000 32) (w : S128x128.Idx → Elt Ideal .f32)
    (b g be : S128.Idx → Elt Ideal .f32) (i : Fin 100000) (q : Fin 128) :
    KReg1.normalised
        (aggArr (F := Ideal)
          (KReg0.scaledProduct x (shapeCast S100000x1 (dinvK (F := Ideal) e) shapeCasts_S100000_S100000x1) w)
          (rowsK e) (colsK e))
        (shapeCast S100000x1 (dinvK (F := Ideal) e) shapeCasts_S100000_S100000x1)
        (shapeCast S1x128 b shapeCasts_S128_S1x128) (shapeCast S1x128 g shapeCasts_S128_S1x128)
        (shapeCast S1x128 be shapeCasts_S128_S1x128) (ix2 i q)
      = layerNormRelu (aggK (fun n k => (x (ix2 n k) : EReal)) (fun k c => (w (ix2 k c) : EReal))
            (fun n => (dinvK (F := Ideal) e (ix1 n) : EReal)) (fun c => (b (ix1 c) : EReal))
            (fun j => nrowsK (rowsK e) (ix1 j)) (fun j => colsK e (ix1 j)))
          (fun c => (g (ix1 c) : EReal)) (fun c => (be (ix1 c) : EReal)) i q := by
  refine (normalised_apply _ _ _ _ _ i q).trans ?_
  rw [layerNormRelu_eq_lnRow]
  refine KReg1.lnRow_congr (funext fun k => ?_) (funext fun k => ?_) (funext fun k => ?_) rfl
  · rw [aggArr_apply _ (rowsK e) (colsK e) (fun n k => (x (ix2 n k) : EReal)) (fun k c => (w (ix2 k c) : EReal))
      (fun n => (dinvK (F := Ideal) e (ix1 n) : EReal)) (fun n c => scaledProduct_apply x (dinvK (F := Ideal) e) w n c) i k,
      shapeCast_a_a1_apply (a := 100000) (dinvK (F := Ideal) e) shapeCasts_S100000_S100000x1 i 0,
      shapeCast_a_1a_apply (a := 128) b shapeCasts_S128_S1x128 0 k]
    rfl
  · exact shapeCast_a_1a_apply (a := 128) g shapeCasts_S128_S1x128 0 k
  · exact shapeCast_a_1a_apply (a := 128) be shapeCasts_S128_S1x128 0 k

end Cert.KernelIdeal.KFinal

end
-- ==== Proof.Bridge.lean ====
/-
  The two programs agree, entry by entry, on real inputs.

  Both host prefixes compute the same source words, target words and degree factors from the edge list (the same
  operations, term for term). At node i, feature q the kernel's result is the layer normalisation of its aggregate
  `aggK`, the reference's that of `aggR`; for real x and W (the degree factors are real: inverse square roots of
  positive counts, or zero) the two aggregates are equal by distributivity, an entry that lands on node i having i
  as its clamped target row.
-/
import proofs.«176098_j48661979464167_2_alg».proof.Proof.RefValue
import proofs.«176098_j48661979464167_2_alg».proof.Proof.RefFacts
import proofs.«176098_j48661979464167_2_alg».proof.Proof.GcnAlgebra
import proofs.«176098_j48661979464167_2_alg».proof.Proof.DinvReal
import proofs.«176098_j48661979464167_2_alg».proof.Proof.KFinal
import proofs.«176098_j48661979464167_2_alg».proof.Proof.Gen.KernelIdeal
import proofs.«176098_j48661979464167_2_alg».proof.Proof.Gen.ReferenceIdeal

noncomputable section

open scoped BigOperators

namespace Cert.Bridge

open Idealize.ShloMosaic Idealize.ShloMosaic.ValueIdx Cert.GcnSpec Cert.KernelIdeal.KHost Cert.LibReal

/-- The target words, in the two programs' spellings. -/
theorem cols_eq (e : IVec Cert.ReferenceIdeal.S2x1600000 32) :
    colsK e = Cert.ReferenceIdeal.ReadP.val_main_v6 (F := Ideal) e := rfl

/-- The normalised source words. -/
theorem nrows_eq (e : IVec Cert.ReferenceIdeal.S2x1600000 32) :
    nrowsK (rowsK e) = Cert.ReferenceIdeal.ReadP.val_main_v20 (F := Ideal) e := rfl

/-- The degree factors. -/
theorem dinv_eq (e : IVec Cert.ReferenceIdeal.S2x1600000 32) :
    dinvK (F := Ideal) e = Cert.ReferenceIdeal.ReadP.val_main_v15 (F := Ideal) e := rfl

/-- The kernel program's result array is the reference's, for real x and W. -/
theorem result_agree (x : FVec Ideal Cert.ReferenceIdeal.S100000x128 .f32) (e : IVec Cert.ReferenceIdeal.S2x1600000 32)
    (w : FVec Ideal Cert.ReferenceIdeal.S128x128 .f32) (b g be : FVec Ideal Cert.ReferenceIdeal.S128 .f32)
    (hx : RealVec x) (hw : RealVec w) :
    Cert.KernelIdeal.KReg1.normalised
        (aggArr (F := Ideal)
          (Cert.KernelIdeal.KReg0.scaledProduct x
            (shapeCast Cert.KernelIdeal.S100000x1 (dinvK (F := Ideal) e) Cert.KernelIdeal.Facts₀.shapeCasts_S100000_S100000x1) w)
          (rowsK e) (colsK e))
        (shapeCast Cert.KernelIdeal.S100000x1 (dinvK (F := Ideal) e) Cert.KernelIdeal.Facts₀.shapeCasts_S100000_S100000x1)
        (shapeCast Cert.KernelIdeal.S1x128 b Cert.KernelIdeal.Facts₀.shapeCasts_S128_S1x128)
        (shapeCast Cert.KernelIdeal.S1x128 g Cert.KernelIdeal.Facts₀.shapeCasts_S128_S1x128)
        (shapeCast Cert.KernelIdeal.S1x128 be Cert.KernelIdeal.Facts₀.shapeCasts_S128_S1x128)
      = Cert.ReferenceIdeal.ReadP.val_main_v72 (F := Ideal) x e w b g be := by
  funext idx
  obtain ⟨i, q, rfl⟩ : ∃ (i : Fin 100000) (q : Fin 128), idx = ix2 i q := ⟨idx 0, idx 1, eq_ix2 idx⟩
  refine (Cert.KernelIdeal.KFinal.kernel_apply x e w b g be i q).trans ?_
  refine Eq.trans ?_ (Cert.RefValue.ref_apply x e w b g be i q).symm
  have hagg : aggK (fun n k => (x (ix2 n k) : EReal)) (fun k c => (w (ix2 k c) : EReal))
        (fun n => (dinvK (F := Ideal) e (ix1 n) : EReal)) (fun c => (b (ix1 c) : EReal))
        (fun j => nrowsK (rowsK e) (ix1 j)) (fun j => colsK e (ix1 j))
      = aggR (fun n k => (x (ix2 n k) : EReal)) (fun k c => (w (ix2 k c) : EReal))
        (fun n => Cert.ReferenceIdeal.ReadP.val_main_v15 (F := Ideal) e (ix1 n)) (fun c => (b (ix1 c) : EReal))
        (fun j => Cert.ReferenceIdeal.ReadP.val_main_v20 (F := Ideal) e (ix1 j))
        (fun j => Cert.ReferenceIdeal.ReadP.val_main_v6 (F := Ideal) e (ix1 j))
        (fun j => Cert.ReferenceIdeal.ReadP.val_main_v27 (F := Ideal) e (ix1 j)) := by
    rw [dinv_eq e, nrows_eq e, cols_eq e]
    exact Cert.GcnAlgebra.aggK_eq_aggR _ _ _ _ _ _ _ (fun n k => hx (ix2 n k)) (fun k c => hw (ix2 k c))
      (fun n => Cert.DinvReal.dinv_real e n) (fun j i h => Cert.RefFacts.tgt_clamp e j i h)
  rw [hagg]

end Cert.Bridge

end
-- ==== Proof.PreReal.lean ====
/-
  The finiteness precondition makes the feature and weight arrays real.

  The precondition is the conjunction of five tests, one per float input `a`: every entry of `a` satisfies
  `|a| < +∞` (the comparison against the word 0x7F800000), the "every entry" being a reduction by `and` over all axes
  from the constant 1. A conjunction of one-bit words is 1 only when each is; a reduction by `and` into a single result
  that is 1 met a 1 at every entry; and an extended real whose absolute value is below +∞ is a real number. So where
  the precondition holds, every entry of the features `x` and of the weights `w` is real.
-/
import proofs.«176098_j48661979464167_2_alg».proof.Pre_finite_inputs
import proofs.«176098_j48661979464167_2_alg».proof.Proof.Gen.Pre_finite_inputs
import proofs.«176098_j48661979464167_2_alg».proof.Proof.LibReal
import Idealize.ShloMosaic.Lib.ReduceAll

noncomputable section

namespace Cert.PreReal

open Idealize.ShloMosaic Cert.Pre_finite_inputs

/-- The scalar shape has one index. -/
instance : Subsingleton S_.Idx := ⟨fun _ _ => funext fun d => d.elim0⟩

/-- Where the finiteness precondition holds, the features and the weights are arrays of real numbers. -/
theorem real_of_pre [Cert.Pre_finite_inputs.Facts]
    (x : FVec Ideal Cert.Pre_finite_inputs.S100000x128 .f32) (e : IVec Cert.Pre_finite_inputs.S2x1600000 32)
    (w : FVec Ideal Cert.Pre_finite_inputs.S128x128 .f32) (b g be : FVec Ideal Cert.Pre_finite_inputs.S128 .f32)
    (h : Cert.Pre_finite_inputs.fn (F := Ideal) x e w b g be = fun _ => 1#1) :
    Cert.LibReal.RealVec x ∧ Cert.LibReal.RealVec w := by
  have h0 := congrFun h ValueIdx.ix0
  dsimp only [Cert.Pre_finite_inputs.fn, Cert.Pre_finite_inputs.fn_part1] at h0
  -- the conjunction of the five tests is 1: each test is 1
  obtain ⟨h18, -⟩ := IntOp.andi_eq_one.1 h0
  obtain ⟨h13, -⟩ := IntOp.andi_eq_one.1 h18
  obtain ⟨h8, -⟩ := IntOp.andi_eq_one.1 h13
  obtain ⟨h3, h7⟩ := IntOp.andi_eq_one.1 h8
  -- a test that is 1 met a 1 at every entry, and an entry with |a| < +∞ is real
  refine ⟨Cert.LibReal.realVec_of_finite_test x fun i => ?_, Cert.LibReal.realVec_of_finite_test w fun i => ?_⟩
  · exact Host.reduce_andi_all _ _ _ _ _ h3 i
  · exact Host.reduce_andi_all _ _ _ _ _ h7 i

end Cert.PreReal

end
-- ==== Proof.lean ====
/-
  One graph-convolution layer with layer normalisation: the Pallas program against its jnp reference, on the extended reals.

  The kernel program runs two kernel regions. The first multiplies each 5000-row block of x, its rows pre-scaled by
  the degree factors d = deg^(-1/2) (zero where the in-degree is zero), by W. The host then gathers the rows of that
  product at the source words of the edge list (self loops appended) and adds them up at the target words. The second
  region scales node i's sum by d[i], adds the bias, and normalises each row (mean, biased variance, inverse square
  root, scale, shift, clip at zero). The reference computes x · W unscaled, gathers its rows, scales entry j's row by
  d[src j] · d[tgt j], adds up at the target words, adds the bias and normalises the same way on the host.

  Per entry the two aggregates differ by where the degree factors multiply: (∑ over entries landing on i of
  ∑_k (x[s,k] · d[s]) · W[k,q]) · d[i] against ∑ over the same entries of (∑_k x[s,k] · W[k,q]) · (d[s] · d[t]) with
  t = i for an entry that lands on i. Over real numbers these agree by distributivity; the precondition makes x and W
  real, and every degree factor is real. Everything after the aggregate is the same function of it on both sides.

  The frames of the two kernel programs are the generated ones; the reference's frame is its run with the result
  dropped; the idealization rewrote nothing, so `preserves` holds trivially.
-/
import proofs.«176098_j48661979464167_2_alg».proof.Defs
import proofs.«176098_j48661979464167_2_alg».proof.Proof.Gen.Kernel
import proofs.«176098_j48661979464167_2_alg».proof.Proof.Gen.Kernel.Skeleton
import proofs.«176098_j48661979464167_2_alg».proof.Proof.Gen.Kernel.Launch
import proofs.«176098_j48661979464167_2_alg».proof.Proof.Gen.Kernel.Points
import proofs.«176098_j48661979464167_2_alg».proof.Proof.Gen.Kernel.Frame
import proofs.«176098_j48661979464167_2_alg».proof.Proof.Gen.KernelIdeal
import proofs.«176098_j48661979464167_2_alg».proof.Proof.Gen.KernelIdeal.Skeleton
import proofs.«176098_j48661979464167_2_alg».proof.Proof.Gen.KernelIdeal.Launch
import proofs.«176098_j48661979464167_2_alg».proof.Proof.Gen.KernelIdeal.Points
import proofs.«176098_j48661979464167_2_alg».proof.Proof.Gen.KernelIdeal.Frame
import proofs.«176098_j48661979464167_2_alg».proof.Proof.Gen.ReferenceIdeal
import proofs.«176098_j48661979464167_2_alg».proof.Proof.Gen.Pre_finite_inputs
import proofs.«176098_j48661979464167_2_alg».proof.Proof.RefRunP
import proofs.«176098_j48661979464167_2_alg».proof.Proof.RefReadP
import proofs.«176098_j48661979464167_2_alg».proof.Proof.KRun
import proofs.«176098_j48661979464167_2_alg».proof.Proof.KHost
import proofs.«176098_j48661979464167_2_alg».proof.Proof.Bridge
import proofs.«176098_j48661979464167_2_alg».proof.Proof.PreReal
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- Both idealized programs run, and from memories agreeing on the arguments their results are equal: the kernel
    program's result array is named by its run and read back through its two regions and the host operations between
    them; the reference's by its run; the two arrays agree entry by entry for real x and W. -/
theorem algebraic : Cert.algebraic_KernelIdeal_ReferenceIdeal := by
  intro m ρ m' ρ' hpre hagree
  refine ⟨fun c => Cert.KernelIdeal.Gen.W6 m ρ c (Proc.devRef .tc Cert.KernelIdeal.main_v31),
    Cert.KernelIdeal.KRun.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨hx, hw⟩ := Cert.PreReal.real_of_pre _ _ _ _ _ _ (hpre c)
  rw [Cert.ReferenceIdeal.ReadP.val_main_v72_eq, (hagree c).1, (hagree c).2.1, (hagree c).2.2.1, (hagree c).2.2.2.1,
    (hagree c).2.2.2.2.1, (hagree c).2.2.2.2.2]
  exact (Cert.Bridge.result_agree _ _ _ _ _ _ hx hw).symm.trans (Cert.KernelIdeal.KHost.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
